-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S2x1600000 : Shape := ⟨2, ![2, 1600000]⟩
abbrev S1600000 : Shape := ⟨1, ![1600000]⟩
abbrev S100000 : Shape := ⟨1, ![100000]⟩
abbrev S100x64 : Shape := ⟨2, ![100, 64]⟩
abbrev S64 : Shape := ⟨1, ![64]⟩
abbrev S64x64 : Shape := ⟨2, ![64, 64]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S100x64 : S_.BroadcastsInDim S100x64 (![] : Fin 0 → Fin S100x64.rank)
  reducesTo_S100x64_S_d0_1 : S100x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part5 {F : FTy → Type} [FloatOps F] (main_arg20 : FVec F S64 .f32) (main_arg21 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  main_v98

def fn_part4 {F : FTy → Type} [FloatOps F] (main_arg16 : FVec F S64x64 .f32) (main_arg17 : FVec F S64 .f32) (main_arg18 : FVec F S64 .f32) (main_arg19 : FVec F S64 .f32) (main_arg20 : FVec F S64 .f32) (main_arg21 : FVec F S64 .f32) (main_v63 : IVec S_ 1) (main_v67 : IVec S_ 1) : IVec S_ 1 :=
  let main_v68 : IVec S_ 1 := andi main_v63 main_v67
  let main_v69 : FVec F S64x64 .f32 := Host.absf main_arg16
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_arg21 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_v63 main_v67

def fn_part2 {F : FTy → Type} [FloatOps F] (main_arg9 : FVec F S64 .f32) (main_arg10 : FVec F S64x64 .f32) (main_arg11 : FVec F S64 .f32) (main_arg12 : FVec F S64 .f32) (main_arg13 : FVec F S64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_arg21 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_arg21 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S100000x100 .f32) (main_arg1 : IVec S2x1600000 32) (main_arg2 : FVec F S1600000 .f32) (main_arg3 : IVec S100000 32) (main_arg4 : FVec F S100x64 .f32) (main_arg5 : FVec F S64 .f32) (main_arg6 : FVec F S64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_arg21 : FVec F S64 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100x64 .f32 := Host.absf main_arg4
  let main_cst_2 : FVec F S_ .f32 := constant S_ .f32 0x7F800000#32
  let main_v10 : FVec F S100x64 .f32 := broadcastInDim S100x64 ![] bcast_S_S100x64 main_cst_2
  let main_v11 : IVec S100x64 1 := cmpf .olt main_v9 main_v10
  let main_c_3 : IVec S_ 1 := constantI S_ 1 1#1
  let main_v12 : IVec S_ 1 := (fun x v => Host.reduce IntOp.andi x v reducesTo_S100x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x100 : Shape := ⟨2, ![100000, 100]⟩
abbrev S2x1600000 : Shape := ⟨2, ![2, 1600000]⟩
abbrev S1600000 : Shape := ⟨1, ![1600000]⟩
abbrev S100000 : Shape := ⟨1, ![100000]⟩
abbrev S100x64 : Shape := ⟨2, ![100, 64]⟩
abbrev S64 : Shape := ⟨1, ![64]⟩
abbrev S64x64 : Shape := ⟨2, ![64, 64]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x100 : Shape := ⟨2, ![5000, 100]⟩
abbrev S5000x64 : Shape := ⟨2, ![5000, 64]⟩
abbrev S1700000x64 : Shape := ⟨2, ![1700000, 64]⟩
abbrev S1x64 : Shape := ⟨2, ![1, 64]⟩
abbrev S32x64 : Shape := ⟨2, ![32, 64]⟩
abbrev S100000x1 : Shape := ⟨2, ![100000, 1]⟩
abbrev S32 : Shape := ⟨1, ![32]⟩
abbrev S32x1 : Shape := ⟨2, ![32, 1]⟩
abbrev S32x128 : Shape := ⟨2, ![32, 128]⟩

abbrev nBuf : Space → Nat
  | .hbm => 143
  | .vmem => 42
  | .smem => 0
  | _ => 0

abbrev hbmTy0_0 (i : Nat) : BufTy := match i % 128 with
  | 0 => ⟨S100000x100, .f32⟩
  | 1 => ⟨S2x1600000, .i32⟩
  | 2 => ⟨S1600000, .f32⟩
  | 3 => ⟨S100000, .i32⟩
  | 4 => ⟨S100x64, .f32⟩
  | 5 => ⟨S64, .f32⟩
  | 6 => ⟨S64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64, .f32⟩
  | 15 => ⟨S64, .f32⟩
  | 16 => ⟨S64x64, .f32⟩
  | 17 => ⟨S64, .f32⟩
  | 18 => ⟨S64, .f32⟩
  | 19 => ⟨S64, .f32⟩
  | 20 => ⟨S64, .f32⟩
  | 21 => ⟨S64, .f32⟩
  | 22 => ⟨S100000, .i32⟩
  | 23 => ⟨S1x1600000, .i32⟩
  | 24 => ⟨S1600000, .i32⟩
  | 25 => ⟨S1700000, .i32⟩
  | 26 => ⟨S1x1600000, .i32⟩
  | 27 => ⟨S1600000, .i32⟩
  | 28 => ⟨S1700000, .i32⟩
  | 29 => ⟨S1600000, .f32⟩
  | 30 => ⟨S_, .f32⟩
  | 31 => ⟨S100000, .f32⟩
  | 32 => ⟨S1700000, .f32⟩
  | 33 => ⟨S_, .f32⟩
  | 34 => ⟨S100000, .f32⟩
  | 35 => ⟨S1700000x1, .i32⟩
  | 36 => ⟨S100000, .f32⟩
  | 37 => ⟨S_, .f32⟩
  | 38 => ⟨S100000, .f32⟩
  | 39 => ⟨S100000, .i1⟩
  | 40 => ⟨S_, .f32⟩
  | 41 => ⟨S_, .f32⟩
  | 42 => ⟨S100000, .f32⟩
  | 43 => ⟨S100000, .f32⟩
  | 44 => ⟨S_, .f32⟩
  | 45 => ⟨S100000, .f32⟩
  | 46 => ⟨S100000, .i1⟩
  | 47 => ⟨S100000, .f32⟩
  | 48 => ⟨S_, .f32⟩
  | 49 => ⟨S_, .f32⟩
  | 50 => ⟨S100000, .f32⟩
  | 51 => ⟨S100000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000, .f32⟩
  | 61 => ⟨S1700000, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000, .f32⟩
  | 71 => ⟨S1700000, .f32⟩
  | 72 => ⟨S100000x64, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x64, .f32⟩
  | 82 => ⟨S1700000x1, .f32⟩
  | 83 => ⟨S1700000x64, .f32⟩
  | 84 => ⟨S1700000x64, .f32⟩
  | 85 => ⟨S_, .f32⟩
  | 86 => ⟨S100000x64, .f32⟩
  | 87 => ⟨S1700000x1, .i32⟩
  | 88 => ⟨S100000x64, .f32⟩
  | 89 => ⟨S100000x64, .f32⟩
  | 90 => ⟨S100000x64, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x64, .f32⟩
  | 100 => ⟨S1700000x1, .f32⟩
  | 101 => ⟨S1700000x64, .f32⟩
  | 102 => ⟨S1700000x64, .f32⟩
  | 103 => ⟨S_, .f32⟩
  | 104 => ⟨S100000x64, .f32⟩
  | 105 => ⟨S1700000x1, .i32⟩
  | 106 => ⟨S100000x64, .f32⟩
  | 107 => ⟨S100000x64, .f32⟩
  | 108 => ⟨S100000x64, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x64, .f32⟩
  | 118 => ⟨S1700000x1, .f32⟩
  | 119 => ⟨S1700000x64, .f32⟩
  | 120 => ⟨S1700000x64, .f32⟩
  | 121 => ⟨S_, .f32⟩
  | 122 => ⟨S100000x64, .f32⟩
  | 123 => ⟨S1700000x1, .i32⟩
  | 124 => ⟨S100000x64, .f32⟩
  | 125 => ⟨S100000x64, .f32⟩
  | 126 => ⟨S_, .f32⟩
  | 127 => ⟨S32x64, .f32⟩
  | _ => ⟨S100000x100, .f32⟩

abbrev hbmTy0_1 (i : Nat) : BufTy := match i % 128 with
  | 0 => ⟨S100000x1, .i32⟩
  | 1 => ⟨S32x64, .f32⟩
  | 2 => ⟨S_, .f32⟩
  | 3 => ⟨S100000, .f32⟩
  | 4 => ⟨S_, .f32⟩
  | 5 => ⟨S32, .f32⟩
  | 6 => ⟨S100000x1, .i32⟩
  | 7 => ⟨S32, .f32⟩
  | 8 => ⟨S_, .f32⟩
  | 9 => ⟨S32, .f32⟩
  | 10 => ⟨S32, .f32⟩
  | 11 => ⟨S32x1, .f32⟩
  | 12 => ⟨S32x64, .f32⟩
  | 13 => ⟨S32x64, .f32⟩
  | 14 => ⟨S32x128, .f32⟩
  | _ => ⟨S100000x100, .f32⟩

abbrev hbmTy (i : Nat) : BufTy := match i / 128 with
  | 0 => hbmTy0_0 i
  | 1 => hbmTy0_1 i
  | _ => ⟨S100000x100, .f32⟩

abbrev bufTy : (tb : Table) → Fin (tcTables nBuf tb) → BufTy
  | .hbm, ⟨i, _⟩ => hbmTy i
  | .local _ .vmem, ⟨0, _⟩ => ⟨S5000x100, .f32⟩
  | .local _ .vmem, ⟨1, _⟩ => ⟨S5000x100, .f32⟩
  | .local _ .vmem, ⟨2, _⟩ => ⟨S100x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64, .f32⟩
  | .local _ .vmem, ⟨8, _⟩ => ⟨S64, .f32⟩
  | .local _ .vmem, ⟨9, _⟩ => ⟨S64, .f32⟩
  | .local _ .vmem, ⟨10, _⟩ => ⟨S64, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S64, .f32⟩
  | .local _ .vmem, ⟨22, _⟩ => ⟨S64, .f32⟩
  | .local _ .vmem, ⟨23, _⟩ => ⟨S64, .f32⟩
  | .local _ .vmem, ⟨24, _⟩ => ⟨S64, .f32⟩
  | .local _ .vmem, ⟨25, _⟩ => ⟨S64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S64, .f32⟩
  | .local _ .vmem, ⟨36, _⟩ => ⟨S64, .f32⟩
  | .local _ .vmem, ⟨37, _⟩ => ⟨S64, .f32⟩
  | .local _ .vmem, ⟨38, _⟩ => ⟨S64, .f32⟩
  | .local _ .vmem, ⟨39, _⟩ => ⟨S64, .f32⟩
  | .local _ .vmem, ⟨40, _⟩ => ⟨S5000x64, .f32⟩
  | .local _ .vmem, ⟨41, _⟩ => ⟨S5000x64, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_cst_0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_v14 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_v15 : Ref sig .tc := ⟨.hbm, 43, rfl⟩
abbrev main_cst_3 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_4 : Ref sig .tc := ⟨.hbm, 48, rfl⟩
abbrev main_call1_v0 : Ref sig .tc := ⟨.hbm, 49, rfl⟩
abbrev main_call1_v1 : Ref sig .tc := ⟨.hbm, 50, rfl⟩
abbrev main_v19 : Ref sig .tc := ⟨.hbm, 51, rfl⟩
abbrev main_c : Ref sig .tc := ⟨.hbm, 52, rfl⟩
abbrev main_v20 : Ref sig .tc := ⟨.hbm, 53, rfl⟩
abbrev main_v21 : Ref sig .tc := ⟨.hbm, 54, rfl⟩
abbrev main_c_5 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_c_6 : Ref sig .tc := ⟨.hbm, 62, rfl⟩
abbrev main_v28 : Ref sig .tc := ⟨.hbm, 63, rfl⟩
abbrev main_v29 : Ref sig .tc := ⟨.hbm, 64, rfl⟩
abbrev main_c_7 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_c_8 : Ref sig .tc := ⟨.hbm, 73, rfl⟩
abbrev main_v37 : Ref sig .tc := ⟨.hbm, 74, rfl⟩
abbrev main_v38 : Ref sig .tc := ⟨.hbm, 75, rfl⟩
abbrev main_c_9 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_10 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_c_11 : Ref sig .tc := ⟨.hbm, 91, rfl⟩
abbrev main_v52 : Ref sig .tc := ⟨.hbm, 92, rfl⟩
abbrev main_v53 : Ref sig .tc := ⟨.hbm, 93, rfl⟩
abbrev main_c_12 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_13 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_c_14 : Ref sig .tc := ⟨.hbm, 109, rfl⟩
abbrev main_v67 : Ref sig .tc := ⟨.hbm, 110, rfl⟩
abbrev main_v68 : Ref sig .tc := ⟨.hbm, 111, rfl⟩
abbrev main_c_15 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_16 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_17 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_18 : Ref sig .tc := ⟨.hbm, 130, rfl⟩
abbrev main_v84 : Ref sig .tc := ⟨.hbm, 131, rfl⟩
abbrev main_cst_19 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_20 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x100_S5000x100_0_0 : ∀ a, (![0, 0] : Fin 2 → Nat) a + S5000x100.size a ≤ S5000x100.size a
  h_S5000x100 : 0 < S5000x100.numel
  bitsLt_bf16_f32 : FTy.bits .bf16 < FTy.bits .f32
  inb_S100x64_S100x64_0_0 : ∀ a, (![0, 0] : Fin 2 → Nat) a + S100x64.size a ≤ S100x64.size a
  h_S100x64 : 0 < S100x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S32x64 : S_.BroadcastsInDim S32x64 (![] : Fin 0 → Fin S32x64.rank)
  bcast_S100000_S100000x1_0 : S100000.BroadcastsInDim S100000x1 (![0] : Fin 1 → Fin S100000x1.rank)
  bcast_S_S32 : S_.BroadcastsInDim S32 (![] : Fin 0 → Fin S32.rank)
  bcast_S32_S32x1_0 : S32.BroadcastsInDim S32x1 (![0] : Fin 1 → Fin S32x1.rank)
  bcast_S32x1_S32x64_0_1 : S32x1.BroadcastsInDim S32x64 (![0, 1] : Fin 2 → Fin S32x64.rank)
  concatenates_S32x64_S32x64_S32x128_d1 : Shape.Concatenates [S32x64, S32x64] S32x128 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x100_S100x64_S5000x64_1_0_0_1_n_n_wf : DotDims.WF S5000x100 S100x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  scatter_S32x64_S100000x1_S100000x64_1_0_0_1_wf : ScatterDims.WF S32x64 S100000x1 S100000x64 [1] [0] [0] 1
  scatter_S32_S100000x1_S100000_n_0_0_1_wf : ScatterDims.WF S32 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S100000x100.size a
  hwx0_0 : ∀ i : grid0.Coords, EltTy.bits .f32 = 32 ∨ (Rect.block (s := S100000x100) S5000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x64.size a ≤ S100x64.size a
  hwx0_1 : ∀ i : grid0.Coords, EltTy.bits .f32 = 32 ∨ (Rect.block (s := S100x64) S100x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64.size a ≤ S64.size a
  hwx3_5 : ∀ i : grid3.Coords, EltTy.bits .f32 = 32 ∨ (Rect.block (s := S64) S64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64.size a ≤ S64.size a
  hwx5_1 : ∀ i : grid5.Coords, EltTy.bits .f32 = 32 ∨ (Rect.block (s := S64) S64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64.size a ≤ S64.size a
  hwx5_4 : ∀ i : grid5.Coords, EltTy.bits .f32 = 32 ∨ (Rect.block (s := S64) S64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64.size a ≤ S64.size a
  hwx5_5 : ∀ i : grid5.Coords, EltTy.bits .f32 = 32 ∨ (Rect.block (s := S64) S64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S100000x64.size a
  hwx5_6 : ∀ i : grid5.Coords, EltTy.bits .f32 = 32 ∨ (Rect.block (s := S100000x64) S5000x64.size (cc5_transform_6 i) (hinb5_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x100_S100x64_S5000x64_1_0_0_1_n_n : DotDims S5000x100 S100x64 S5000x64 where
  lhsContracting := [1]
  rhsContracting := [0]
  lhsNonContracting := [0]
  rhsNonContracting := [1]
  lhsBatch := []
  rhsBatch := []
  wf := dot_S5000x100_S100x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S32x64_S100000x1_S100000x64_1_0_0_1 : ScatterDims S32x64 S100000x1 S100000x64 where
  updateWindowDims := [1]
  insertedWindowDims := [0]
  scatterDimsToOperandDims := [0]
  indexVectorDim := 1
  wf := scatter_S32x64_S100000x1_S100000x64_1_0_0_1_wf
def scatter_S32_S100000x1_S100000_n_0_0_1 : ScatterDims S32 S100000x1 S100000 where
  updateWindowDims := []
  insertedWindowDims := [0]
  scatterDimsToOperandDims := [0]
  indexVectorDim := 1
  wf := scatter_S32_S100000x1_S100000_n_0_0_1_wf

abbrev win0_0 : Pipeline.Window sig grid0 :=
  Pipeline.Window.ofSpec (Memref.whole main_arg0) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S100x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v65) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v65) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg16) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v79) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg17) S64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg18) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg19) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg20) S64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg21) S64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v80) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x100 : Shape := ⟨2, ![100000, 100]⟩
abbrev S2x1600000 : Shape := ⟨2, ![2, 1600000]⟩
abbrev S1600000 : Shape := ⟨1, ![1600000]⟩
abbrev S100000 : Shape := ⟨1, ![100000]⟩
abbrev S100x64 : Shape := ⟨2, ![100, 64]⟩
abbrev S64 : Shape := ⟨1, ![64]⟩
abbrev S64x64 : Shape := ⟨2, ![64, 64]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S32x64 : Shape := ⟨2, ![32, 64]⟩
abbrev S100000x1 : Shape := ⟨2, ![100000, 1]⟩
abbrev S32 : Shape := ⟨1, ![32]⟩
abbrev S32x1 : Shape := ⟨2, ![32, 1]⟩
abbrev S32x128 : Shape := ⟨2, ![32, 128]⟩

abbrev nBuf : Space → Nat
  | .hbm => 206
  | .vmem => 0
  | .smem => 0
  | _ => 0

abbrev hbmTy0_0 (i : Nat) : BufTy := match i % 128 with
  | 0 => ⟨S100000x100, .f32⟩
  | 1 => ⟨S2x1600000, .i32⟩
  | 2 => ⟨S1600000, .f32⟩
  | 3 => ⟨S100000, .i32⟩
  | 4 => ⟨S100x64, .f32⟩
  | 5 => ⟨S64, .f32⟩
  | 6 => ⟨S64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64, .f32⟩
  | 15 => ⟨S64, .f32⟩
  | 16 => ⟨S64x64, .f32⟩
  | 17 => ⟨S64, .f32⟩
  | 18 => ⟨S64, .f32⟩
  | 19 => ⟨S64, .f32⟩
  | 20 => ⟨S64, .f32⟩
  | 21 => ⟨S64, .f32⟩
  | 22 => ⟨S100000, .i32⟩
  | 23 => ⟨S1x1600000, .i32⟩
  | 24 => ⟨S1600000, .i32⟩
  | 25 => ⟨S1700000, .i32⟩
  | 26 => ⟨S1x1600000, .i32⟩
  | 27 => ⟨S1600000, .i32⟩
  | 28 => ⟨S1700000, .i32⟩
  | 29 => ⟨S1600000, .f32⟩
  | 30 => ⟨S_, .f32⟩
  | 31 => ⟨S100000, .f32⟩
  | 32 => ⟨S1700000, .f32⟩
  | 33 => ⟨S_, .f32⟩
  | 34 => ⟨S100000, .f32⟩
  | 35 => ⟨S1700000x1, .i32⟩
  | 36 => ⟨S100000, .f32⟩
  | 37 => ⟨S_, .f32⟩
  | 38 => ⟨S100000, .f32⟩
  | 39 => ⟨S100000, .i1⟩
  | 40 => ⟨S_, .f32⟩
  | 41 => ⟨S_, .f32⟩
  | 42 => ⟨S100000, .f32⟩
  | 43 => ⟨S100000, .f32⟩
  | 44 => ⟨S_, .f32⟩
  | 45 => ⟨S100000, .f32⟩
  | 46 => ⟨S100000, .i1⟩
  | 47 => ⟨S100000, .f32⟩
  | 48 => ⟨S_, .f32⟩
  | 49 => ⟨S_, .f32⟩
  | 50 => ⟨S100000, .f32⟩
  | 51 => ⟨S100000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000, .f32⟩
  | 61 => ⟨S1700000, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000, .f32⟩
  | 71 => ⟨S1700000, .f32⟩
  | 72 => ⟨S100000x64, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x64, .f32⟩
  | 82 => ⟨S1700000x1, .f32⟩
  | 83 => ⟨S1700000x64, .f32⟩
  | 84 => ⟨S1700000x64, .f32⟩
  | 85 => ⟨S_, .f32⟩
  | 86 => ⟨S100000x64, .f32⟩
  | 87 => ⟨S1700000x1, .i32⟩
  | 88 => ⟨S100000x64, .f32⟩
  | 89 => ⟨S1x64, .f32⟩
  | 90 => ⟨S100000x64, .f32⟩
  | 91 => ⟨S100000x64, .f32⟩
  | 92 => ⟨S1x64, .f32⟩
  | 93 => ⟨S100000x64, .f32⟩
  | 94 => ⟨S100000x64, .f32⟩
  | 95 => ⟨S_, .f32⟩
  | 96 => ⟨S64, .f32⟩
  | 97 => ⟨S64, .f32⟩
  | 98 => ⟨S64, .f32⟩
  | 99 => ⟨S1x64, .f32⟩
  | 100 => ⟨S100000x64, .f32⟩
  | 101 => ⟨S100000x64, .f32⟩
  | 102 => ⟨S1x64, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S_, .f32⟩
  | 109 => ⟨S100000x64, .f32⟩
  | 110 => ⟨S100000x64, .f32⟩
  | 111 => ⟨S100000x64, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x64, .f32⟩
  | 121 => ⟨S1700000x1, .f32⟩
  | 122 => ⟨S1700000x64, .f32⟩
  | 123 => ⟨S1700000x64, .f32⟩
  | 124 => ⟨S_, .f32⟩
  | 125 => ⟨S100000x64, .f32⟩
  | 126 => ⟨S1700000x1, .i32⟩
  | 127 => ⟨S100000x64, .f32⟩
  | _ => ⟨S100000x100, .f32⟩

abbrev hbmTy0_1 (i : Nat) : BufTy := match i % 128 with
  | 0 => ⟨S1x64, .f32⟩
  | 1 => ⟨S100000x64, .f32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S64, .f32⟩
  | 8 => ⟨S64, .f32⟩
  | 9 => ⟨S64, .f32⟩
  | 10 => ⟨S1x64, .f32⟩
  | 11 => ⟨S100000x64, .f32⟩
  | 12 => ⟨S100000x64, .f32⟩
  | 13 => ⟨S1x64, .f32⟩
  | 14 => ⟨S100000x64, .f32⟩
  | 15 => ⟨S100000x64, .f32⟩
  | 16 => ⟨S1x64, .f32⟩
  | 17 => ⟨S100000x64, .f32⟩
  | 18 => ⟨S100000x64, .f32⟩
  | 19 => ⟨S_, .f32⟩
  | 20 => ⟨S100000x64, .f32⟩
  | 21 => ⟨S100000x64, .f32⟩
  | 22 => ⟨S100000x64, .f32⟩
  | 23 => ⟨S_, .i32⟩
  | 24 => ⟨S1700000, .i32⟩
  | 25 => ⟨S1700000, .i1⟩
  | 26 => ⟨S_, .i32⟩
  | 27 => ⟨S1700000, .i32⟩
  | 28 => ⟨S1700000, .i32⟩
  | 29 => ⟨S1700000, .i32⟩
  | 30 => ⟨S1700000x1, .i32⟩
  | 31 => ⟨S1700000x64, .f32⟩
  | 32 => ⟨S1700000x1, .f32⟩
  | 33 => ⟨S1700000x64, .f32⟩
  | 34 => ⟨S1700000x64, .f32⟩
  | 35 => ⟨S_, .f32⟩
  | 36 => ⟨S100000x64, .f32⟩
  | 37 => ⟨S1700000x1, .i32⟩
  | 38 => ⟨S100000x64, .f32⟩
  | 39 => ⟨S1x64, .f32⟩
  | 40 => ⟨S100000x64, .f32⟩
  | 41 => ⟨S100000x64, .f32⟩
  | 42 => ⟨S1x64, .f32⟩
  | 43 => ⟨S100000x64, .f32⟩
  | 44 => ⟨S100000x64, .f32⟩
  | 45 => ⟨S_, .f32⟩
  | 46 => ⟨S64, .f32⟩
  | 47 => ⟨S64, .f32⟩
  | 48 => ⟨S64, .f32⟩
  | 49 => ⟨S1x64, .f32⟩
  | 50 => ⟨S100000x64, .f32⟩
  | 51 => ⟨S100000x64, .f32⟩
  | 52 => ⟨S1x64, .f32⟩
  | 53 => ⟨S100000x64, .f32⟩
  | 54 => ⟨S100000x64, .f32⟩
  | 55 => ⟨S1x64, .f32⟩
  | 56 => ⟨S100000x64, .f32⟩
  | 57 => ⟨S100000x64, .f32⟩
  | 58 => ⟨S_, .f32⟩
  | 59 => ⟨S100000x64, .f32⟩
  | 60 => ⟨S100000x64, .f32⟩
  | 61 => ⟨S_, .f32⟩
  | 62 => ⟨S32x64, .f32⟩
  | 63 => ⟨S100000x1, .i32⟩
  | 64 => ⟨S32x64, .f32⟩
  | 65 => ⟨S_, .f32⟩
  | 66 => ⟨S100000, .f32⟩
  | 67 => ⟨S_, .f32⟩
  | 68 => ⟨S32, .f32⟩
  | 69 => ⟨S100000x1, .i32⟩
  | 70 => ⟨S32, .f32⟩
  | 71 => ⟨S_, .f32⟩
  | 72 => ⟨S32, .f32⟩
  | 73 => ⟨S32, .f32⟩
  | 74 => ⟨S32x1, .f32⟩
  | 75 => ⟨S32x64, .f32⟩
  | 76 => ⟨S32x64, .f32⟩
  | 77 => ⟨S32x128, .f32⟩
  | _ => ⟨S100000x100, .f32⟩

abbrev hbmTy (i : Nat) : BufTy := match i / 128 with
  | 0 => hbmTy0_0 i
  | 1 => hbmTy0_1 i
  | _ => ⟨S100000x100, .f32⟩

abbrev bufTy : (tb : Table) → Fin (tcTables nBuf tb) → BufTy
  | .hbm, ⟨i, _⟩ => hbmTy i
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_cst_0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_v14 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_v15 : Ref sig .tc := ⟨.hbm, 43, rfl⟩
abbrev main_cst_3 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_4 : Ref sig .tc := ⟨.hbm, 48, rfl⟩
abbrev main_call1_v0 : Ref sig .tc := ⟨.hbm, 49, rfl⟩
abbrev main_call1_v1 : Ref sig .tc := ⟨.hbm, 50, rfl⟩
abbrev main_v19 : Ref sig .tc := ⟨.hbm, 51, rfl⟩
abbrev main_c : Ref sig .tc := ⟨.hbm, 52, rfl⟩
abbrev main_v20 : Ref sig .tc := ⟨.hbm, 53, rfl⟩
abbrev main_v21 : Ref sig .tc := ⟨.hbm, 54, rfl⟩
abbrev main_c_5 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_c_6 : Ref sig .tc := ⟨.hbm, 62, rfl⟩
abbrev main_v28 : Ref sig .tc := ⟨.hbm, 63, rfl⟩
abbrev main_v29 : Ref sig .tc := ⟨.hbm, 64, rfl⟩
abbrev main_c_7 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_c_8 : Ref sig .tc := ⟨.hbm, 73, rfl⟩
abbrev main_v37 : Ref sig .tc := ⟨.hbm, 74, rfl⟩
abbrev main_v38 : Ref sig .tc := ⟨.hbm, 75, rfl⟩
abbrev main_c_9 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_10 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_11 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_12 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_c_13 : Ref sig .tc := ⟨.hbm, 112, rfl⟩
abbrev main_v71 : Ref sig .tc := ⟨.hbm, 113, rfl⟩
abbrev main_v72 : Ref sig .tc := ⟨.hbm, 114, rfl⟩
abbrev main_c_14 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_15 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_16 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_17 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_c_18 : Ref sig .tc := ⟨.hbm, 151, rfl⟩
abbrev main_v105 : Ref sig .tc := ⟨.hbm, 152, rfl⟩
abbrev main_v106 : Ref sig .tc := ⟨.hbm, 153, rfl⟩
abbrev main_c_19 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_20 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_21 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_22 : Ref sig .tc := ⟨.hbm, 186, rfl⟩
abbrev main_v136 : Ref sig .tc := ⟨.hbm, 187, rfl⟩
abbrev main_v137 : Ref sig .tc := ⟨.hbm, 188, rfl⟩
abbrev main_cst_23 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_cst_24 : Ref sig .tc := ⟨.hbm, 193, rfl⟩
abbrev main_v141 : Ref sig .tc := ⟨.hbm, 194, rfl⟩
abbrev main_cst_25 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_cst_26 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S32x64 : S_.BroadcastsInDim S32x64 (![] : Fin 0 → Fin S32x64.rank)
  bcast_S100000_S100000x1_0 : S100000.BroadcastsInDim S100000x1 (![0] : Fin 1 → Fin S100000x1.rank)
  bcast_S_S32 : S_.BroadcastsInDim S32 (![] : Fin 0 → Fin S32.rank)
  bcast_S32_S32x1_0 : S32.BroadcastsInDim S32x1 (![0] : Fin 1 → Fin S32x1.rank)
  bcast_S32x1_S32x64_0_1 : S32x1.BroadcastsInDim S32x64 (![0, 1] : Fin 2 → Fin S32x64.rank)
  concatenates_S32x64_S32x64_S32x128_d1 : Shape.Concatenates [S32x64, S32x64] S32x128 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x100_S100x64_S100000x64_1_0_0_1_n_n_wf : DotDims.WF S100000x100 S100x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S32x64_S100000x1_S100000x64_1_0_0_1_wf : ScatterDims.WF S32x64 S100000x1 S100000x64 [1] [0] [0] 1
  scatter_S32_S100000x1_S100000_n_0_0_1_wf : ScatterDims.WF S32 S100000x1 S100000 [] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x100_S100x64_S100000x64_1_0_0_1_n_n : DotDims S100000x100 S100x64 S100000x64 where
  lhsContracting := [1]
  rhsContracting := [0]
  lhsNonContracting := [0]
  rhsNonContracting := [1]
  lhsBatch := []
  rhsBatch := []
  wf := dot_S100000x100_S100x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S32x64_S100000x1_S100000x64_1_0_0_1 : ScatterDims S32x64 S100000x1 S100000x64 where
  updateWindowDims := [1]
  insertedWindowDims := [0]
  scatterDimsToOperandDims := [0]
  indexVectorDim := 1
  wf := scatter_S32x64_S100000x1_S100000x64_1_0_0_1_wf
def scatter_S32_S100000x1_S100000_n_0_0_1 : ScatterDims S32 S100000x1 S100000 where
  updateWindowDims := []
  insertedWindowDims := [0]
  scatterDimsToOperandDims := [0]
  indexVectorDim := 1
  wf := scatter_S32_S100000x1_S100000_n_0_0_1_wf

class Facts : Prop extends Facts₀ where

variable [Facts]
-- ==== Proof.KernelRun.lean ====
/-
  The idealized kernel program's run with its memory read at the end.

  The program is fifteen segments: stretches of host operations and six kernel regions. Its buffer contents are
  folded through the segment boundaries, from the launch memory to the contents `W15` at the return: a host
  stretch rewrites the buffers its operations write, a region rewrites its arrays by what its write-backs leave.
  Every weakly fair execution from a memory with zero counters terminates without a fault, and in the final state
  EVERY buffer that outlives the kernels holds what the fold says (`run_held`). Read at the result buffer and at
  the argument arrays this is the run the equivalence claim needs (`run_result`): the result at the fold's last
  contents, the arguments as launched.
-/
import proofs.«126172_j16475494547815_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that outlives the kernels ends at the fold's last contents: the launch of the segments, the first
    thread state dealt from the launch memory, the last one read against the final state. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-- The result buffer ends at the fold's last contents and the argument arrays end as launched. -/
theorem run_result : θ_run defs (onTc (τ := τ) (main (F := F))) ⟨m, fun _ => 0, ρ⟩ (fun r => ∀ c : Dev nD,
      r.2.mem ((c.tc : Thread nD τ).loc main_v93) = W15 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨h c _ (mem_uc main_v93 (by decide)),
      (h c _ (mem_uc main_arg0 (by decide))).trans (W15_main_arg0 m ρ c),
      (h c _ (mem_uc main_arg1 (by decide))).trans (W15_main_arg1 m ρ c),
      (h c _ (mem_uc main_arg2 (by decide))).trans (W15_main_arg2 m ρ c),
      (h c _ (mem_uc main_arg3 (by decide))).trans (W15_main_arg3 m ρ c),
      (h c _ (mem_uc main_arg4 (by decide))).trans (W15_main_arg4 m ρ c),
      (h c _ (mem_uc main_arg5 (by decide))).trans (W15_main_arg5 m ρ c),
      (h c _ (mem_uc main_arg6 (by decide))).trans (W15_main_arg6 m ρ c),
      (h c _ (mem_uc main_arg7 (by decide))).trans (W15_main_arg7 m ρ c),
      (h c _ (mem_uc main_arg8 (by decide))).trans (W15_main_arg8 m ρ c),
      (h c _ (mem_uc main_arg9 (by decide))).trans (W15_main_arg9 m ρ c),
      (h c _ (mem_uc main_arg10 (by decide))).trans (W15_main_arg10 m ρ c),
      (h c _ (mem_uc main_arg11 (by decide))).trans (W15_main_arg11 m ρ c),
      (h c _ (mem_uc main_arg12 (by decide))).trans (W15_main_arg12 m ρ c),
      (h c _ (mem_uc main_arg13 (by decide))).trans (W15_main_arg13 m ρ c),
      (h c _ (mem_uc main_arg14 (by decide))).trans (W15_main_arg14 m ρ c),
      (h c _ (mem_uc main_arg15 (by decide))).trans (W15_main_arg15 m ρ c),
      (h c _ (mem_uc main_arg16 (by decide))).trans (W15_main_arg16 m ρ c),
      (h c _ (mem_uc main_arg17 (by decide))).trans (W15_main_arg17 m ρ c),
      (h c _ (mem_uc main_arg18 (by decide))).trans (W15_main_arg18 m ρ c),
      (h c _ (mem_uc main_arg19 (by decide))).trans (W15_main_arg19 m ρ c),
      (h c _ (mem_uc main_arg20 (by decide))).trans (W15_main_arg20 m ρ c),
      (h c _ (mem_uc main_arg21 (by decide))).trans (W15_main_arg21 m ρ c)⟩)
    (run_held m ρ)

end Cert.KernelIdeal.Run

end
-- ==== Proof.Kept.lean ====
/- What the run of the kernel program leaves unchanged, boundary by boundary.

   The run folds the TensorCore's buffer contents through sixteen boundaries `W0 … W15`: `W(k+1)` is `W k` after a
   stretch of host operations, or after one kernel region's write-backs. A stretch of host operations writes only
   its own result buffers; a kernel region changes only its output array (its input arrays are read, and every other
   buffer is bypassed). So a buffer that is neither a stretch's result nor a region's output holds at the later
   boundary what it held at the earlier one. Each such fact is stated once per boundary, for every reference at
   once, under a hypothesis of the form "the reference is not in this list", which is decidable on references. -/
import proofs.«126172_j16475494547815_1_alg».proof.Proof.Gen.KernelIdeal.Frame

set_option maxRecDepth 16384

noncomputable section

namespace Cert.KernelIdeal.Kept

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What each stretch of host operations writes

Each host operation writes exactly one buffer, its result. The list `S_W` names, in order, the result of every
operation of the stretch `S`; `S_writes` says every operation's written set lies inside that list. -/

/-- The buffers `hostOps0`'s operations write: one result each, in order. -/
abbrev hostOps0_W : List (Ref sig .tc) :=
  [main_v0, main_v1, main_v2, main_v3, main_v4, main_v5, main_v6, main_v7, main_cst, main_v8, main_v9, main_cst_0, main_v10, main_v11, main_v12, main_cst_1, main_v13, main_v14, main_cst_2]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps0_1`'s operations write: one result each, in order. -/
abbrev hostOps0_1_W : List (Ref sig .tc) :=
  [main_call0_v0, main_call0_v1, main_v15]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps0_2`'s operations write: one result each, in order. -/
abbrev hostOps0_2_W : List (Ref sig .tc) :=
  [main_cst_3, main_v16, main_v17, main_v18, main_cst_4]
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps0_3`'s operations write: one result each, in order. -/
abbrev hostOps0_3_W : List (Ref sig .tc) :=
  [main_call1_v0, main_call1_v1, main_v19]
theorem hostOps0_3_writes : (hostOps0_3 : List (HloOp τ sig (Elt F))).Forall fun op => op.writes ⊆ (hostOps0_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps0_4`'s operations write: one result each, in order. -/
abbrev hostOps0_4_W : List (Ref sig .tc) :=
  [main_c, main_v20, main_v21, main_c_5, main_v22, main_v23, main_v24, main_v25, main_v26, main_v27, main_c_6, main_v28, main_v29, main_c_7, main_v30, main_v31, main_v32, main_v33, main_v34, main_v35]
theorem hostOps0_4_writes : (hostOps0_4 : List (HloOp τ sig (Elt F))).Forall fun op => op.writes ⊆ (hostOps0_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps1`'s operations write: one result each, in order. -/
abbrev hostOps1_W : List (Ref sig .tc) :=
  [main_c_8, main_v37, main_v38, main_c_9, main_v39, main_v40, main_v41, main_v42, main_v43, main_v44, main_v45, main_v46, main_cst_10, main_v47, main_v48, main_v49]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps3`'s operations write: one result each, in order. -/
abbrev hostOps3_W : List (Ref sig .tc) :=
  [main_c_11, main_v52, main_v53, main_c_12, main_v54, main_v55, main_v56, main_v57, main_v58, main_v59, main_v60, main_v61, main_cst_13, main_v62, main_v63, main_v64]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps5`'s operations write: one result each, in order. -/
abbrev hostOps5_W : List (Ref sig .tc) :=
  [main_c_14, main_v67, main_v68, main_c_15, main_v69, main_v70, main_v71, main_v72, main_v73, main_v74, main_v75, main_v76, main_cst_16, main_v77, main_v78, main_v79]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps6`'s operations write: one result each, in order. -/
abbrev hostOps6_W : List (Ref sig .tc) :=
  [main_cst_17, main_v81, main_v82, main_v83, main_cst_18, main_v84, main_cst_19, main_v85, main_v86, main_v87, main_cst_20, main_v88, main_v89, main_v90, main_v91, main_v92, main_v93]
theorem hostOps6_writes : (hostOps6 : List (HloOp τ sig (Elt F))).Forall fun op => op.writes ⊆ (hostOps6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## Across a stretch of host operations

A reference that is not one of the stretch's results holds after the stretch what it held before it. -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h

theorem W5_of (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h

theorem W7_of (c : Dev nD) (r : Ref sig .tc) (h : r ∉ hostOps1_W) :
    W7 m ρ c (Proc.devRef .tc r) = W6 m ρ c (Proc.devRef .tc r) :=
  StableHlo.after_of_writes_sub hostOps1 _ hostOps1_writes h

theorem W10_of (c : Dev nD) (r : Ref sig .tc) (h : r ∉ hostOps3_W) :
    W10 m ρ c (Proc.devRef .tc r) = W9 m ρ c (Proc.devRef .tc r) :=
  StableHlo.after_of_writes_sub hostOps3 _ hostOps3_writes h

theorem W13_of (c : Dev nD) (r : Ref sig .tc) (h : r ∉ hostOps5_W) :
    W13 m ρ c (Proc.devRef .tc r) = W12 m ρ c (Proc.devRef .tc r) :=
  StableHlo.after_of_writes_sub hostOps5 _ hostOps5_writes h

theorem W15_of (c : Dev nD) (r : Ref sig .tc) (h : r ∉ hostOps6_W) :
    W15 m ρ c (Proc.devRef .tc r) = W14 m ρ c (Proc.devRef .tc r) :=
  StableHlo.after_of_writes_sub hostOps6 _ hostOps6_writes h

/-! ## Across a kernel region

A region's arrays are its input windows' arrays followed by its one output array. At the region's exit an input
array holds what the pipeline leaves there, which is what it held at entry (an input window is only read); a
buffer that is none of the region's arrays is bypassed. So every reference other than the output array holds at
the exit what it held at entry. -/

/-- Region 0 changes only `main_v36`: its inputs `main_arg0`, `main_arg4` are read, everything else is bypassed. -/
theorem W6_keep (c : Dev nD) (r : Ref sig .tc) (h : r ≠ main_v36) :
    W6 m ρ c (Proc.devRef .tc r) = W5 m ρ c (Proc.devRef .tc r) := by
  by_cases h0 : r = main_arg0
  · subst h0
    exact (W6_arr m ρ c 0).trans (((dat0 (V5 m ρ) c).arrAt_in 0 rfl _).trans (A_eq0 (V5 m ρ) c 0))
  by_cases h1 : r = main_arg4
  · subst h1
    exact (W6_arr m ρ c 1).trans (((dat0 (V5 m ρ) c).arrAt_in 1 rfl _).trans (A_eq0 (V5 m ρ) c 1))
  refine W6_of_ne m ρ c r fun w => ?_
  fin_cases w
  exacts [fun e => h0 e.symm, fun e => h1 e.symm, fun e => h e.symm]

/-- Region 1 changes only `main_v50`: its inputs `main_v49`, `main_arg5`, `main_arg6`, `main_arg7`, `main_arg8`, `main_arg9` are read, everything else is bypassed. -/
theorem W8_keep (c : Dev nD) (r : Ref sig .tc) (h : r ≠ main_v50) :
    W8 m ρ c (Proc.devRef .tc r) = W7 m ρ c (Proc.devRef .tc r) := by
  by_cases h0 : r = main_v49
  · subst h0
    exact (W8_arr m ρ c 0).trans (((dat1 (V7 m ρ) c).arrAt_in 0 rfl _).trans (A_eq1 (V7 m ρ) c 0))
  by_cases h1 : r = main_arg5
  · subst h1
    exact (W8_arr m ρ c 1).trans (((dat1 (V7 m ρ) c).arrAt_in 1 rfl _).trans (A_eq1 (V7 m ρ) c 1))
  by_cases h2 : r = main_arg6
  · subst h2
    exact (W8_arr m ρ c 2).trans (((dat1 (V7 m ρ) c).arrAt_in 2 rfl _).trans (A_eq1 (V7 m ρ) c 2))
  by_cases h3 : r = main_arg7
  · subst h3
    exact (W8_arr m ρ c 3).trans (((dat1 (V7 m ρ) c).arrAt_in 3 rfl _).trans (A_eq1 (V7 m ρ) c 3))
  by_cases h4 : r = main_arg8
  · subst h4
    exact (W8_arr m ρ c 4).trans (((dat1 (V7 m ρ) c).arrAt_in 4 rfl _).trans (A_eq1 (V7 m ρ) c 4))
  by_cases h5 : r = main_arg9
  · subst h5
    exact (W8_arr m ρ c 5).trans (((dat1 (V7 m ρ) c).arrAt_in 5 rfl _).trans (A_eq1 (V7 m ρ) c 5))
  refine W8_of_ne m ρ c r fun w => ?_
  fin_cases w
  exacts [fun e => h0 e.symm, fun e => h1 e.symm, fun e => h2 e.symm, fun e => h3 e.symm, fun e => h4 e.symm, fun e => h5 e.symm, fun e => h e.symm]

/-- Region 2 changes only `main_v51`: its inputs `main_v50`, `main_arg10` are read, everything else is bypassed. -/
theorem W9_keep (c : Dev nD) (r : Ref sig .tc) (h : r ≠ main_v51) :
    W9 m ρ c (Proc.devRef .tc r) = W8 m ρ c (Proc.devRef .tc r) := by
  by_cases h0 : r = main_v50
  · subst h0
    exact (W9_arr m ρ c 0).trans (((dat2 (V8 m ρ) c).arrAt_in 0 rfl _).trans (A_eq2 (V8 m ρ) c 0))
  by_cases h1 : r = main_arg10
  · subst h1
    exact (W9_arr m ρ c 1).trans (((dat2 (V8 m ρ) c).arrAt_in 1 rfl _).trans (A_eq2 (V8 m ρ) c 1))
  refine W9_of_ne m ρ c r fun w => ?_
  fin_cases w
  exacts [fun e => h0 e.symm, fun e => h1 e.symm, fun e => h e.symm]

/-- Region 3 changes only `main_v65`: its inputs `main_v64`, `main_arg11`, `main_arg12`, `main_arg13`, `main_arg14`, `main_arg15` are read, everything else is bypassed. -/
theorem W11_keep (c : Dev nD) (r : Ref sig .tc) (h : r ≠ main_v65) :
    W11 m ρ c (Proc.devRef .tc r) = W10 m ρ c (Proc.devRef .tc r) := by
  by_cases h0 : r = main_v64
  · subst h0
    exact (W11_arr m ρ c 0).trans (((dat3 (V10 m ρ) c).arrAt_in 0 rfl _).trans (A_eq3 (V10 m ρ) c 0))
  by_cases h1 : r = main_arg11
  · subst h1
    exact (W11_arr m ρ c 1).trans (((dat3 (V10 m ρ) c).arrAt_in 1 rfl _).trans (A_eq3 (V10 m ρ) c 1))
  by_cases h2 : r = main_arg12
  · subst h2
    exact (W11_arr m ρ c 2).trans (((dat3 (V10 m ρ) c).arrAt_in 2 rfl _).trans (A_eq3 (V10 m ρ) c 2))
  by_cases h3 : r = main_arg13
  · subst h3
    exact (W11_arr m ρ c 3).trans (((dat3 (V10 m ρ) c).arrAt_in 3 rfl _).trans (A_eq3 (V10 m ρ) c 3))
  by_cases h4 : r = main_arg14
  · subst h4
    exact (W11_arr m ρ c 4).trans (((dat3 (V10 m ρ) c).arrAt_in 4 rfl _).trans (A_eq3 (V10 m ρ) c 4))
  by_cases h5 : r = main_arg15
  · subst h5
    exact (W11_arr m ρ c 5).trans (((dat3 (V10 m ρ) c).arrAt_in 5 rfl _).trans (A_eq3 (V10 m ρ) c 5))
  refine W11_of_ne m ρ c r fun w => ?_
  fin_cases w
  exacts [fun e => h0 e.symm, fun e => h1 e.symm, fun e => h2 e.symm, fun e => h3 e.symm, fun e => h4 e.symm, fun e => h5 e.symm, fun e => h e.symm]

/-- Region 4 changes only `main_v66`: its inputs `main_v65`, `main_arg16` are read, everything else is bypassed. -/
theorem W12_keep (c : Dev nD) (r : Ref sig .tc) (h : r ≠ main_v66) :
    W12 m ρ c (Proc.devRef .tc r) = W11 m ρ c (Proc.devRef .tc r) := by
  by_cases h0 : r = main_v65
  · subst h0
    exact (W12_arr m ρ c 0).trans (((dat4 (V11 m ρ) c).arrAt_in 0 rfl _).trans (A_eq4 (V11 m ρ) c 0))
  by_cases h1 : r = main_arg16
  · subst h1
    exact (W12_arr m ρ c 1).trans (((dat4 (V11 m ρ) c).arrAt_in 1 rfl _).trans (A_eq4 (V11 m ρ) c 1))
  refine W12_of_ne m ρ c r fun w => ?_
  fin_cases w
  exacts [fun e => h0 e.symm, fun e => h1 e.symm, fun e => h e.symm]

/-- Region 5 changes only `main_v80`: its inputs `main_v79`, `main_arg17`, `main_arg18`, `main_arg19`, `main_arg20`, `main_arg21` are read, everything else is bypassed. -/
theorem W14_keep (c : Dev nD) (r : Ref sig .tc) (h : r ≠ main_v80) :
    W14 m ρ c (Proc.devRef .tc r) = W13 m ρ c (Proc.devRef .tc r) := by
  by_cases h0 : r = main_v79
  · subst h0
    exact (W14_arr m ρ c 0).trans (((dat5 (V13 m ρ) c).arrAt_in 0 rfl _).trans (A_eq5 (V13 m ρ) c 0))
  by_cases h1 : r = main_arg17
  · subst h1
    exact (W14_arr m ρ c 1).trans (((dat5 (V13 m ρ) c).arrAt_in 1 rfl _).trans (A_eq5 (V13 m ρ) c 1))
  by_cases h2 : r = main_arg18
  · subst h2
    exact (W14_arr m ρ c 2).trans (((dat5 (V13 m ρ) c).arrAt_in 2 rfl _).trans (A_eq5 (V13 m ρ) c 2))
  by_cases h3 : r = main_arg19
  · subst h3
    exact (W14_arr m ρ c 3).trans (((dat5 (V13 m ρ) c).arrAt_in 3 rfl _).trans (A_eq5 (V13 m ρ) c 3))
  by_cases h4 : r = main_arg20
  · subst h4
    exact (W14_arr m ρ c 4).trans (((dat5 (V13 m ρ) c).arrAt_in 4 rfl _).trans (A_eq5 (V13 m ρ) c 4))
  by_cases h5 : r = main_arg21
  · subst h5
    exact (W14_arr m ρ c 5).trans (((dat5 (V13 m ρ) c).arrAt_in 5 rfl _).trans (A_eq5 (V13 m ρ) c 5))
  refine W14_of_ne m ρ c r fun w => ?_
  fin_cases w
  exacts [fun e => h0 e.symm, fun e => h1 e.symm, fun e => h2 e.symm, fun e => h3 e.symm, fun e => h4 e.symm, fun e => h5 e.symm, fun e => h e.symm]

/-! ## Two summaries

`early` lists everything written before region 0 is entered; a reference outside it holds at region 0's entry what
the launch memory holds. `late` lists everything written from region 0 on (each region's output array and each
later stretch's results); a reference outside it holds at every later boundary what it held at region 0's entry. -/

/-- A reference outside an append is outside its left part. -/
theorem not_mem_left {α : Type} {a : α} {l₁ l₂ : List α} (h : a ∉ l₁ ++ l₂) : a ∉ l₁ :=
  fun hm => h (List.mem_append_left _ hm)
/-- A reference outside an append is outside its right part. -/
theorem not_mem_right {α : Type} {a : α} {l₁ l₂ : List α} (h : a ∉ l₁ ++ l₂) : a ∉ l₂ :=
  fun hm => h (List.mem_append_right _ hm)

/-- Every buffer written before region 0 is entered. -/
abbrev early : List (Ref sig .tc) :=
  hostOps0_W ++ hostOps0_1_W ++ hostOps0_2_W ++ hostOps0_3_W ++ hostOps0_4_W

/-- A reference no operation before region 0 writes holds, at region 0's entry, its launch contents. -/
theorem W5_launch (c : Dev nD) (r : Ref sig .tc) (h : r ∉ early) :
    W5 m ρ c (Proc.devRef .tc r) = m ((c : Thread nD τ).loc r) :=
  calc W5 m ρ c (Proc.devRef .tc r)
    _ = W4 m ρ c (Proc.devRef .tc r) := W5_of m ρ c r (not_mem_right h)
    _ = W3 m ρ c (Proc.devRef .tc r) := W4_of m ρ c r (not_mem_right (not_mem_left h))
    _ = W2 m ρ c (Proc.devRef .tc r) := W3_of m ρ c r (not_mem_right (not_mem_left (not_mem_left h)))
    _ = W1 m ρ c (Proc.devRef .tc r) := W2_of m ρ c r (not_mem_right (not_mem_left (not_mem_left (not_mem_left h))))
    _ = W0 m ρ c (Proc.devRef .tc r) := W1_of m ρ c r (not_mem_left (not_mem_left (not_mem_left (not_mem_left h))))
    _ = m ((c : Thread nD τ).loc r) := rfl

/-- Every buffer written from region 0 on: each region's output array, each later stretch's results. -/
abbrev late : List (Ref sig .tc) :=
  [main_v36] ++ hostOps1_W ++ [main_v50, main_v51] ++ hostOps3_W ++ [main_v65, main_v66] ++ hostOps5_W ++ [main_v80] ++ hostOps6_W

/-! A reference outside `late` is outside each of its eight parts. -/

section Parts
variable {r : Ref sig .tc} (h : r ∉ late)
include h

theorem late_v36 : r ≠ main_v36 :=
  List.ne_of_not_mem_cons (not_mem_left (not_mem_left (not_mem_left (not_mem_left (not_mem_left (not_mem_left (not_mem_left h)))))))
theorem late_hostOps1 : r ∉ hostOps1_W :=
  not_mem_right (not_mem_left (not_mem_left (not_mem_left (not_mem_left (not_mem_left (not_mem_left h))))))
theorem late_v50 : r ≠ main_v50 :=
  List.ne_of_not_mem_cons (not_mem_right (not_mem_left (not_mem_left (not_mem_left (not_mem_left (not_mem_left h))))))
theorem late_v51 : r ≠ main_v51 :=
  List.ne_of_not_mem_cons (List.not_mem_of_not_mem_cons (not_mem_right (not_mem_left (not_mem_left (not_mem_left (not_mem_left (not_mem_left h)))))))
theorem late_hostOps3 : r ∉ hostOps3_W :=
  not_mem_right (not_mem_left (not_mem_left (not_mem_left (not_mem_left h))))
theorem late_v65 : r ≠ main_v65 :=
  List.ne_of_not_mem_cons (not_mem_right (not_mem_left (not_mem_left (not_mem_left h))))
theorem late_v66 : r ≠ main_v66 :=
  List.ne_of_not_mem_cons (List.not_mem_of_not_mem_cons (not_mem_right (not_mem_left (not_mem_left (not_mem_left h)))))
theorem late_hostOps5 : r ∉ hostOps5_W :=
  not_mem_right (not_mem_left (not_mem_left h))
theorem late_v80 : r ≠ main_v80 :=
  List.ne_of_not_mem_cons (not_mem_right (not_mem_left h))
theorem late_hostOps6 : r ∉ hostOps6_W :=
  not_mem_right h

end Parts

/-! A reference outside `late` holds at each boundary from region 0's exit on what it held at region 0's entry: one
step per boundary, each step the stretch's or the region's own fact. -/

theorem W6_early (c : Dev nD) (r : Ref sig .tc) (h : r ∉ late) :
    W6 m ρ c (Proc.devRef .tc r) = W5 m ρ c (Proc.devRef .tc r) :=
  W6_keep m ρ c r (late_v36 h)
theorem W7_early (c : Dev nD) (r : Ref sig .tc) (h : r ∉ late) :
    W7 m ρ c (Proc.devRef .tc r) = W5 m ρ c (Proc.devRef .tc r) :=
  (W7_of m ρ c r (late_hostOps1 h)).trans (W6_early m ρ c r h)
theorem W8_early (c : Dev nD) (r : Ref sig .tc) (h : r ∉ late) :
    W8 m ρ c (Proc.devRef .tc r) = W5 m ρ c (Proc.devRef .tc r) :=
  (W8_keep m ρ c r (late_v50 h)).trans (W7_early m ρ c r h)
theorem W9_early (c : Dev nD) (r : Ref sig .tc) (h : r ∉ late) :
    W9 m ρ c (Proc.devRef .tc r) = W5 m ρ c (Proc.devRef .tc r) :=
  (W9_keep m ρ c r (late_v51 h)).trans (W8_early m ρ c r h)
theorem W10_early (c : Dev nD) (r : Ref sig .tc) (h : r ∉ late) :
    W10 m ρ c (Proc.devRef .tc r) = W5 m ρ c (Proc.devRef .tc r) :=
  (W10_of m ρ c r (late_hostOps3 h)).trans (W9_early m ρ c r h)
theorem W11_early (c : Dev nD) (r : Ref sig .tc) (h : r ∉ late) :
    W11 m ρ c (Proc.devRef .tc r) = W5 m ρ c (Proc.devRef .tc r) :=
  (W11_keep m ρ c r (late_v65 h)).trans (W10_early m ρ c r h)
theorem W12_early (c : Dev nD) (r : Ref sig .tc) (h : r ∉ late) :
    W12 m ρ c (Proc.devRef .tc r) = W5 m ρ c (Proc.devRef .tc r) :=
  (W12_keep m ρ c r (late_v66 h)).trans (W11_early m ρ c r h)
theorem W13_early (c : Dev nD) (r : Ref sig .tc) (h : r ∉ late) :
    W13 m ρ c (Proc.devRef .tc r) = W5 m ρ c (Proc.devRef .tc r) :=
  (W13_of m ρ c r (late_hostOps5 h)).trans (W12_early m ρ c r h)
theorem W14_early (c : Dev nD) (r : Ref sig .tc) (h : r ∉ late) :
    W14 m ρ c (Proc.devRef .tc r) = W5 m ρ c (Proc.devRef .tc r) :=
  (W14_keep m ρ c r (late_v80 h)).trans (W13_early m ρ c r h)
theorem W15_early (c : Dev nD) (r : Ref sig .tc) (h : r ∉ late) :
    W15 m ρ c (Proc.devRef .tc r) = W5 m ρ c (Proc.devRef .tc r) :=
  (W15_of m ρ c r (late_hostOps6 h)).trans (W14_early m ρ c r h)

/-! The hypotheses are decided on references: an argument array and an early intermediate array are outside
`late`, an argument array is outside `early`. -/

example : main_arg5 ∉ (late : List (Ref sig .tc)) := by decide
example : main_v35 ∉ (late : List (Ref sig .tc)) := by decide
example : main_arg0 ∉ (early : List (Ref sig .tc)) := by decide

/-! The same, as the facts are used: an early intermediate array read at region 5's exit, an argument array read at
region 0's entry. -/

example (c : Dev nD) : W14 m ρ c (Proc.devRef .tc main_v35) = W5 m ρ c (Proc.devRef .tc main_v35) :=
  W14_early m ρ c main_v35 (by decide)
example (c : Dev nD) : W13 m ρ c (Proc.devRef .tc main_arg17) = m ((c : Thread nD τ).loc main_arg17) :=
  (W13_early m ρ c main_arg17 (by decide)).trans (W5_launch m ρ c main_arg17 (by decide))

end Cert.KernelIdeal.Kept
-- ==== Proof.EarlyValues.lean ====
/- The three early host values at region 0's entry.

   Before its first kernel region the kernel program computes, by host operations on the argument arrays alone, the
   source index of every edge (the edge list's first row followed by the self-loops), the destination index of every
   edge (its second row followed by the self-loops), and the per-edge normalisation (the factor at the source times
   the absolute edge weight times the factor at the destination, the factor of a node being the reciprocal square root of its
   weighted in-degree where that is positive and zero elsewhere). The reference program computes the same three values
   by the same operations. Here: at region 0's entry the kernel program's three buffers hold exactly the reference's
   three stages of the launch arguments. -/
import proofs.«126172_j16475494547815_1_alg».proof.Proof.Gen.KernelIdeal.Frame
import proofs.«126172_j16475494547815_1_alg».proof.Proof.Gen.ReferenceIdeal.Read
import Idealize.ShloMosaic.Lib.StableHlo.Run

set_option maxRecDepth 16384

noncomputable section

namespace Cert.Bridge.Early

open Cert.KernelIdeal Cert.KernelIdeal.Gen
open Idealize.ShloMosaic Idealize.ShloMosaic.TcCoe Idealize.ShloMosaic.StableHlo Idealize.SL.Sem

/-! ## One stretch of host operations at a time, over any contents

Each lemma reads one buffer after one stretch of host operations started from arbitrary contents `V`. A result
buffer holds the operations' functions applied to `V` at the buffers the stretch reads; a buffer the stretch does
not write holds what `V` holds. -/

section Steps
variable (V : Valuation τ sig (Elt Ideal))

/-! The first stretch: the index vectors (a row of the edge list followed by the self-loops), the absolute edge weights
followed by ones, the weighted in-degree, and its comparison with zero, all from the two argument arrays. -/

theorem s0_v3 : StableHlo.after hostOps0 V (Proc.devRef .tc main_v3) = Cert.ReferenceIdeal.Read.val_main_v3 (F := Ideal) (V (Proc.devRef .tc main_arg1)) := by
  after_results_simp <;> rfl
theorem s0_v6 : StableHlo.after hostOps0 V (Proc.devRef .tc main_v6) = Cert.ReferenceIdeal.Read.val_main_v6 (F := Ideal) (V (Proc.devRef .tc main_arg1)) := by
  after_results_simp <;> rfl
theorem s0_v9 : StableHlo.after hostOps0 V (Proc.devRef .tc main_v9) = Cert.ReferenceIdeal.Read.val_main_v9 (F := Ideal) (V (Proc.devRef .tc main_arg2)) := by
  after_results_simp <;> rfl
theorem s0_v12 : StableHlo.after hostOps0 V (Proc.devRef .tc main_v12) = Cert.ReferenceIdeal.Read.val_main_v12 (F := Ideal) (V (Proc.devRef .tc main_arg1)) (V (Proc.devRef .tc main_arg2)) := by
  after_results_simp <;> rfl
theorem s0_v14 : StableHlo.after hostOps0 V (Proc.devRef .tc main_v14) = Cert.ReferenceIdeal.Read.val_main_v14 (F := Ideal) (V (Proc.devRef .tc main_arg1)) (V (Proc.devRef .tc main_arg2)) := by
  after_results_simp <;> rfl
theorem s0_cst_2 : StableHlo.after hostOps0 V (Proc.devRef .tc main_cst_2) = Cert.ReferenceIdeal.Read.val_main_cst_2 (F := Ideal) := by
  after_results_simp <;> rfl

/-! The second stretch: the degree where it is positive, one elsewhere. -/

theorem s1_v15 : StableHlo.after hostOps0_1 V (Proc.devRef .tc main_v15)
    = select (V (Proc.devRef .tc main_v14)) (V (Proc.devRef .tc main_v12)) (broadcastInDim S100000 ![] bcast_S_S100000 (id (V (Proc.devRef .tc main_cst_2)))) := by
  after_results_simp <;> rfl
theorem k1_v12 : StableHlo.after hostOps0_1 V (Proc.devRef .tc main_v12) = V (Proc.devRef .tc main_v12) := by
  after_results_simp
theorem k1_v3 : StableHlo.after hostOps0_1 V (Proc.devRef .tc main_v3) = V (Proc.devRef .tc main_v3) := by
  after_results_simp
theorem k1_v6 : StableHlo.after hostOps0_1 V (Proc.devRef .tc main_v6) = V (Proc.devRef .tc main_v6) := by
  after_results_simp
theorem k1_v9 : StableHlo.after hostOps0_1 V (Proc.devRef .tc main_v9) = V (Proc.devRef .tc main_v9) := by
  after_results_simp

/-! The third stretch: the degree's comparison with zero again, and the reciprocal square root of the guarded degree. -/

theorem s2_v17 : StableHlo.after hostOps0_2 V (Proc.devRef .tc main_v17) = (cmpf (F := Ideal) (φ := .f32) .ogt (V (Proc.devRef .tc main_v12) : (⟨S100000, .f32⟩ : BufTy).Contents (Elt Ideal)) (Cert.ReferenceIdeal.Read.val_main_v16 (F := Ideal)) : (⟨S100000, .i1⟩ : BufTy).Contents (Elt Ideal)) := by
  after_results_simp <;> rfl
theorem s2_v18 : StableHlo.after hostOps0_2 V (Proc.devRef .tc main_v18) = (Host.rsqrt (F := Ideal) (φ := .f32) (V (Proc.devRef .tc main_v15) : (⟨S100000, .f32⟩ : BufTy).Contents (Elt Ideal)) : (⟨S100000, .f32⟩ : BufTy).Contents (Elt Ideal)) := by
  after_results_simp <;> rfl
theorem s2_cst_4 : StableHlo.after hostOps0_2 V (Proc.devRef .tc main_cst_4) = Cert.ReferenceIdeal.Read.val_main_cst_4 (F := Ideal) := by
  after_results_simp <;> rfl
theorem k2_v3 : StableHlo.after hostOps0_2 V (Proc.devRef .tc main_v3) = V (Proc.devRef .tc main_v3) := by
  after_results_simp
theorem k2_v6 : StableHlo.after hostOps0_2 V (Proc.devRef .tc main_v6) = V (Proc.devRef .tc main_v6) := by
  after_results_simp
theorem k2_v9 : StableHlo.after hostOps0_2 V (Proc.devRef .tc main_v9) = V (Proc.devRef .tc main_v9) := by
  after_results_simp

/-! The fourth stretch: the reciprocal square root where the degree is positive, zero elsewhere. -/

theorem s3_v19 : StableHlo.after hostOps0_3 V (Proc.devRef .tc main_v19)
    = select (V (Proc.devRef .tc main_v17)) (V (Proc.devRef .tc main_v18)) (broadcastInDim S100000 ![] bcast_S_S100000 (id (V (Proc.devRef .tc main_cst_4)))) := by
  after_results_simp <;> rfl
theorem k3_v3 : StableHlo.after hostOps0_3 V (Proc.devRef .tc main_v3) = V (Proc.devRef .tc main_v3) := by
  after_results_simp
theorem k3_v6 : StableHlo.after hostOps0_3 V (Proc.devRef .tc main_v6) = V (Proc.devRef .tc main_v6) := by
  after_results_simp
theorem k3_v9 : StableHlo.after hostOps0_3 V (Proc.devRef .tc main_v9) = V (Proc.devRef .tc main_v9) := by
  after_results_simp

/-! The fifth stretch: per edge, the factor at its source times its weight times the factor at its destination, the
two factors gathered at the index vectors (a negative index wrapped around first). -/

theorem s4_v35 : StableHlo.after hostOps0_4 V (Proc.devRef .tc main_v35)
    = (mulf (F := Ideal) (φ := .f32)
        (mulf (F := Ideal) (φ := .f32)
          (Host.gather gather_S100000_S1700000x1_S1700000_n_0_n_n_0_1_1 (V (Proc.devRef .tc main_v19) : (⟨S100000, .f32⟩ : BufTy).Contents (Elt Ideal))
            (broadcastInDim S1700000x1 ![0] bcast_S1700000_S1700000x1_0
              (select (cmpi .slt (V (Proc.devRef .tc main_v3) : (⟨S1700000, .i32⟩ : BufTy).Contents (Elt Ideal)) (Cert.ReferenceIdeal.Read.val_main_v20 (F := Ideal)))
                (addi (V (Proc.devRef .tc main_v3) : (⟨S1700000, .i32⟩ : BufTy).Contents (Elt Ideal)) (Cert.ReferenceIdeal.Read.val_main_v22 (F := Ideal))) (V (Proc.devRef .tc main_v3) : (⟨S1700000, .i32⟩ : BufTy).Contents (Elt Ideal)))))
          (V (Proc.devRef .tc main_v9) : (⟨S1700000, .f32⟩ : BufTy).Contents (Elt Ideal)))
        (Host.gather gather_S100000_S1700000x1_S1700000_n_0_n_n_0_1_1 (V (Proc.devRef .tc main_v19) : (⟨S100000, .f32⟩ : BufTy).Contents (Elt Ideal))
          (broadcastInDim S1700000x1 ![0] bcast_S1700000_S1700000x1_0
            (select (cmpi .slt (V (Proc.devRef .tc main_v6) : (⟨S1700000, .i32⟩ : BufTy).Contents (Elt Ideal)) (Cert.ReferenceIdeal.Read.val_main_v28 (F := Ideal)))
              (addi (V (Proc.devRef .tc main_v6) : (⟨S1700000, .i32⟩ : BufTy).Contents (Elt Ideal)) (Cert.ReferenceIdeal.Read.val_main_v30 (F := Ideal))) (V (Proc.devRef .tc main_v6) : (⟨S1700000, .i32⟩ : BufTy).Contents (Elt Ideal)))))
        : (⟨S1700000, .f32⟩ : BufTy).Contents (Elt Ideal)) := by
  after_results_simp <;> rfl
theorem k4_v3 : StableHlo.after hostOps0_4 V (Proc.devRef .tc main_v3) = V (Proc.devRef .tc main_v3) := by
  after_results_simp
theorem k4_v6 : StableHlo.after hostOps0_4 V (Proc.devRef .tc main_v6) = V (Proc.devRef .tc main_v6) := by
  after_results_simp

end Steps

/-! ## The boundaries, from the launch memory

The steps instantiated at the boundary contents `W0 … W4`, each operand's contents replaced by the reference's
stage of the launch arguments as soon as it is known. At the launch (`W0`) an argument's buffer holds the launch
memory. -/

variable (m : (ℓ : Loc nD τ sig) → Buf (Elt Ideal) ℓ) (ρ : Dev nD → PrngReg) (c : Dev nD)

theorem W1_v3 : W1 m ρ c (Proc.devRef .tc main_v3) = Cert.ReferenceIdeal.Read.val_main_v3 (F := Ideal) (m ((c : Thread nD τ).loc main_arg1)) := s0_v3 (W0 m ρ c)
theorem W1_v6 : W1 m ρ c (Proc.devRef .tc main_v6) = Cert.ReferenceIdeal.Read.val_main_v6 (F := Ideal) (m ((c : Thread nD τ).loc main_arg1)) := s0_v6 (W0 m ρ c)
theorem W1_v9 : W1 m ρ c (Proc.devRef .tc main_v9) = Cert.ReferenceIdeal.Read.val_main_v9 (F := Ideal) (m ((c : Thread nD τ).loc main_arg2)) := s0_v9 (W0 m ρ c)
theorem W1_v12 : W1 m ρ c (Proc.devRef .tc main_v12) = Cert.ReferenceIdeal.Read.val_main_v12 (F := Ideal) (m ((c : Thread nD τ).loc main_arg1)) (m ((c : Thread nD τ).loc main_arg2)) := s0_v12 (W0 m ρ c)
theorem W1_v14 : W1 m ρ c (Proc.devRef .tc main_v14) = Cert.ReferenceIdeal.Read.val_main_v14 (F := Ideal) (m ((c : Thread nD τ).loc main_arg1)) (m ((c : Thread nD τ).loc main_arg2)) := s0_v14 (W0 m ρ c)
theorem W1_cst_2 : W1 m ρ c (Proc.devRef .tc main_cst_2) = Cert.ReferenceIdeal.Read.val_main_cst_2 (F := Ideal) := s0_cst_2 (W0 m ρ c)

theorem W2_v3 : W2 m ρ c (Proc.devRef .tc main_v3) = Cert.ReferenceIdeal.Read.val_main_v3 (F := Ideal) (m ((c : Thread nD τ).loc main_arg1)) := (k1_v3 (W1 m ρ c)).trans (W1_v3 m ρ c)
theorem W2_v6 : W2 m ρ c (Proc.devRef .tc main_v6) = Cert.ReferenceIdeal.Read.val_main_v6 (F := Ideal) (m ((c : Thread nD τ).loc main_arg1)) := (k1_v6 (W1 m ρ c)).trans (W1_v6 m ρ c)
theorem W2_v9 : W2 m ρ c (Proc.devRef .tc main_v9) = Cert.ReferenceIdeal.Read.val_main_v9 (F := Ideal) (m ((c : Thread nD τ).loc main_arg2)) := (k1_v9 (W1 m ρ c)).trans (W1_v9 m ρ c)
theorem W2_v12 : W2 m ρ c (Proc.devRef .tc main_v12) = Cert.ReferenceIdeal.Read.val_main_v12 (F := Ideal) (m ((c : Thread nD τ).loc main_arg1)) (m ((c : Thread nD τ).loc main_arg2)) := (k1_v12 (W1 m ρ c)).trans (W1_v12 m ρ c)
theorem W2_v15 : W2 m ρ c (Proc.devRef .tc main_v15) = Cert.ReferenceIdeal.Read.val_main_v15 (F := Ideal) (m ((c : Thread nD τ).loc main_arg1)) (m ((c : Thread nD τ).loc main_arg2)) :=
  (s1_v15 (W1 m ρ c)).trans (by rw [W1_v14 m ρ c, W1_v12 m ρ c, W1_cst_2 m ρ c]; rfl)

theorem W3_v3 : W3 m ρ c (Proc.devRef .tc main_v3) = Cert.ReferenceIdeal.Read.val_main_v3 (F := Ideal) (m ((c : Thread nD τ).loc main_arg1)) := (k2_v3 (W2 m ρ c)).trans (W2_v3 m ρ c)
theorem W3_v6 : W3 m ρ c (Proc.devRef .tc main_v6) = Cert.ReferenceIdeal.Read.val_main_v6 (F := Ideal) (m ((c : Thread nD τ).loc main_arg1)) := (k2_v6 (W2 m ρ c)).trans (W2_v6 m ρ c)
theorem W3_v9 : W3 m ρ c (Proc.devRef .tc main_v9) = Cert.ReferenceIdeal.Read.val_main_v9 (F := Ideal) (m ((c : Thread nD τ).loc main_arg2)) := (k2_v9 (W2 m ρ c)).trans (W2_v9 m ρ c)
theorem W3_v17 : W3 m ρ c (Proc.devRef .tc main_v17) = Cert.ReferenceIdeal.Read.val_main_v17 (F := Ideal) (m ((c : Thread nD τ).loc main_arg1)) (m ((c : Thread nD τ).loc main_arg2)) :=
  (s2_v17 (W2 m ρ c)).trans (by rw [W2_v12 m ρ c]; rfl)
theorem W3_v18 : W3 m ρ c (Proc.devRef .tc main_v18) = Cert.ReferenceIdeal.Read.val_main_v18 (F := Ideal) (m ((c : Thread nD τ).loc main_arg1)) (m ((c : Thread nD τ).loc main_arg2)) :=
  (s2_v18 (W2 m ρ c)).trans (by rw [W2_v15 m ρ c]; rfl)
theorem W3_cst_4 : W3 m ρ c (Proc.devRef .tc main_cst_4) = Cert.ReferenceIdeal.Read.val_main_cst_4 (F := Ideal) := s2_cst_4 (W2 m ρ c)

theorem W4_v3 : W4 m ρ c (Proc.devRef .tc main_v3) = Cert.ReferenceIdeal.Read.val_main_v3 (F := Ideal) (m ((c : Thread nD τ).loc main_arg1)) := (k3_v3 (W3 m ρ c)).trans (W3_v3 m ρ c)
theorem W4_v6 : W4 m ρ c (Proc.devRef .tc main_v6) = Cert.ReferenceIdeal.Read.val_main_v6 (F := Ideal) (m ((c : Thread nD τ).loc main_arg1)) := (k3_v6 (W3 m ρ c)).trans (W3_v6 m ρ c)
theorem W4_v9 : W4 m ρ c (Proc.devRef .tc main_v9) = Cert.ReferenceIdeal.Read.val_main_v9 (F := Ideal) (m ((c : Thread nD τ).loc main_arg2)) := (k3_v9 (W3 m ρ c)).trans (W3_v9 m ρ c)
theorem W4_v19 : W4 m ρ c (Proc.devRef .tc main_v19) = Cert.ReferenceIdeal.Read.val_main_v19 (F := Ideal) (m ((c : Thread nD τ).loc main_arg1)) (m ((c : Thread nD τ).loc main_arg2)) :=
  (s3_v19 (W3 m ρ c)).trans (by rw [W3_v17 m ρ c, W3_v18 m ρ c, W3_cst_4 m ρ c]; rfl)

/-! ## At region 0's entry -/

/-- The source indices at region 0's entry are the reference's, of the launch edge list. -/
theorem src_eq : W5 m ρ c (Proc.devRef .tc main_v3) = Cert.ReferenceIdeal.Read.val_main_v3 (F := Ideal) (m ((c : Thread nD τ).loc main_arg1)) :=
  (k4_v3 (W4 m ρ c)).trans (W4_v3 m ρ c)
/-- The destination indices at region 0's entry are the reference's, of the launch edge list. -/
theorem dst_eq : W5 m ρ c (Proc.devRef .tc main_v6) = Cert.ReferenceIdeal.Read.val_main_v6 (F := Ideal) (m ((c : Thread nD τ).loc main_arg1)) :=
  (k4_v6 (W4 m ρ c)).trans (W4_v6 m ρ c)
/-- The per-edge normalisation at region 0's entry is the reference's, of the launch edge list and edge weights. -/
theorem norm_eq : W5 m ρ c (Proc.devRef .tc main_v35) = Cert.ReferenceIdeal.Read.val_main_v35 (F := Ideal) (m ((c : Thread nD τ).loc main_arg1)) (m ((c : Thread nD τ).loc main_arg2)) :=
  (s4_v35 (W4 m ρ c)).trans (by rw [W4_v19 m ρ c, W4_v3 m ρ c, W4_v6 m ρ c, W4_v9 m ρ c]; rfl)

end Cert.Bridge.Early
-- ==== Proof.Spec.lean ====
/-
  The two dense stages of a graph-convolution layer, entry by entry over the extended reals.

  * `rowsTimes A B`: the product of an `R × n` matrix of node features by an `n × k` weight matrix,
    `(r, o) ↦ Σ_c A (r, c) · B (c, o)`.
  * `shiftScaleRelu h b g β μ v`: a bias, then a normalisation by fixed statistics, then a rectifier,
    `(r, o) ↦ max ((((h (r, o) + b o) − μ o) · (v o + ε)^(−1/2)) · g o + β o) 0`,
    with the operations in this order (no law of arithmetic is used to regroup them) and `ε` the
    single-precision word nearest to 1e-5, kept as its word.

  Both are stated over index types of literal rank two and one, with indices built from coordinates.
-/
import Idealize.ShloMosaic.PureOps.Ideal
import Idealize.ShloMosaic.Lib.ValueIdx

noncomputable section

namespace Cert.GraphLayer

open Idealize.ShloMosaic Idealize.ShloMosaic.ValueIdx

/-- Rows times weights: entry `(r, o)` is the sum over the shared axis of `A (r, c) · B (c, o)`. -/
def rowsTimes {R n k : Nat} (A : FVec Ideal (⟨2, ![R, n]⟩ : Shape) .f32) (B : FVec Ideal (⟨2, ![n, k]⟩ : Shape) .f32) :
    FVec Ideal (⟨2, ![R, k]⟩ : Shape) .f32 :=
  fun i => ∑ c : Fin n, A (ix2 (i 0) c) * B (ix2 c (i 1))

theorem rowsTimes_apply {R n k : Nat} (A : FVec Ideal (⟨2, ![R, n]⟩ : Shape) .f32) (B : FVec Ideal (⟨2, ![n, k]⟩ : Shape) .f32)
    (r : Fin R) (o : Fin k) : rowsTimes A B (ix2 r o) = ∑ c : Fin n, A (ix2 r c) * B (ix2 c o) := rfl

/-- The variance offset: the single-precision word of 1e-5, read as the extended real it denotes. -/
abbrev varOffset : EReal := Ideal.ofBits .f32 0x3727C5AC#32

/-- One entry of the shifted, scaled and rectified layer, from the entry of `h` and the column's five parameters. -/
def shiftScaleReluEntry (x b g β μ v : EReal) : EReal :=
  max ((((x + b) - μ) * Ideal.rsqrt (v + varOffset)) * g + β) (Ideal.ofBits .f32 0x00000000#32)

/-- Bias, normalisation by fixed statistics, rectifier: entry `(r, o)` from `h (r, o)` and column `o`'s parameters. -/
def shiftScaleRelu {R k : Nat} (h : FVec Ideal (⟨2, ![R, k]⟩ : Shape) .f32)
    (b g β μ v : FVec Ideal (⟨1, ![k]⟩ : Shape) .f32) : FVec Ideal (⟨2, ![R, k]⟩ : Shape) .f32 :=
  fun i => shiftScaleReluEntry (h i) (b (ix1 (i 1))) (g (ix1 (i 1))) (β (ix1 (i 1))) (μ (ix1 (i 1))) (v (ix1 (i 1)))

theorem shiftScaleRelu_apply {R k : Nat} (h : FVec Ideal (⟨2, ![R, k]⟩ : Shape) .f32)
    (b g β μ v : FVec Ideal (⟨1, ![k]⟩ : Shape) .f32) (r : Fin R) (o : Fin k) :
    shiftScaleRelu h b g β μ v (ix2 r o)
      = shiftScaleReluEntry (h (ix2 r o)) (b (ix1 o)) (g (ix1 o)) (β (ix1 o)) (μ (ix1 o)) (v (ix1 o)) := rfl

end Cert.GraphLayer

end
-- ==== Proof.RefStages.lean ====
/-
  The reference's dense stages are the specification's two functions.

  The reference network has three layers. In each, a matrix product of the node features by the layer's weights is
  followed (after the edge gather and scatter, which are not read here) by a bias, a normalisation by fixed
  statistics and a rectifier. Entry by entry over the extended reals:

  * the product stage at `(r, o)` is `Σ_c A (r, c) · B (c, o)`, which is `rowsTimes A B`: the two index functions of
    the product, `(r, o), c ↦ (r, c)` and `(r, o), c ↦ (c, o)`, are the indices built from those coordinates;
  * the normalisation stretch broadcasts each of its five parameter vectors first to a row and then down the rows,
    so at `(r, o)` every one of them is read at `o`; the variance offset and the rectifier's zero are rank-zero
    constants read everywhere; the arithmetic is then, in the reference's own order,
    `max ((((h (r, o) + b o) − μ o) · (v o + ε)^(−1/2)) · g o + β o) 0`, which is `shiftScaleRelu h b g β μ v`.

  No law of arithmetic is used: each equation holds by reading both sides at an index.
-/
import proofs.«126172_j16475494547815_1_alg».proof.Proof.Gen.ReferenceIdeal.Read
import proofs.«126172_j16475494547815_1_alg».proof.Proof.Spec

noncomputable section

open scoped BigOperators

namespace Cert.ReferenceIdeal.Stages

open Cert.ReferenceIdeal Cert.ReferenceIdeal.Read Cert.GraphLayer Idealize.ShloMosaic Idealize.ShloMosaic.ValueIdx

/-- Layer one's product: the node features times the first weight matrix. -/
theorem prod0 (x0 : (⟨S100000x100, .f32⟩ : BufTy).Contents (Elt Ideal)) (x4 : (⟨S100x64, .f32⟩ : BufTy).Contents (Elt Ideal)) :
    val_main_v36 (F := Ideal) x0 x4 = rowsTimes x0 x4 := by
  funext i
  rw [val_main_v36_apply]
  exact Finset.sum_congr rfl fun k _ => by
    rw [show lidx_main_v36 i k = ix2 (i 0) k from funext fun a => Fin.ext (by match a with | ⟨0, _⟩ => rfl | ⟨1, _⟩ => rfl),
      show ridx_main_v36 i k = ix2 k (i 1) from funext fun a => Fin.ext (by match a with | ⟨0, _⟩ => rfl | ⟨1, _⟩ => rfl)]
    rfl

/-- Layer one's bias, normalisation and rectifier, as a function of the scattered sum before them. -/
theorem norm0 (x0 : (⟨S100000x100, .f32⟩ : BufTy).Contents (Elt Ideal)) (x1 : (⟨S2x1600000, .i32⟩ : BufTy).Contents (Elt Ideal))
    (x2 : (⟨S1600000, .f32⟩ : BufTy).Contents (Elt Ideal)) (x4 : (⟨S100x64, .f32⟩ : BufTy).Contents (Elt Ideal))
    (x5 x6 x7 x8 x9 : (⟨S64, .f32⟩ : BufTy).Contents (Elt Ideal)) :
    val_main_v69 (F := Ideal) x0 x1 x2 x4 x5 x6 x7 x8 x9
      = shiftScaleRelu (val_main_v49 (F := Ideal) x0 x1 x2 x4) x5 x6 x7 x8 x9 := by
  funext i
  -- each parameter row is read at the column of `i`
  have e50 : idx_main_v50 (idx_main_v51 i) = (ix1 (i 1) : S64.Idx) := funext fun a => Fin.ext (by match a with | ⟨0, _⟩ => rfl)
  have e53 : idx_main_v53 (idx_main_v54 i) = (ix1 (i 1) : S64.Idx) := funext fun a => Fin.ext (by match a with | ⟨0, _⟩ => rfl)
  have e59 : idx_main_v59 (idx_main_v60 i) = (ix1 (i 1) : S64.Idx) := funext fun a => Fin.ext (by match a with | ⟨0, _⟩ => rfl)
  have e62 : idx_main_v62 (idx_main_v63 i) = (ix1 (i 1) : S64.Idx) := funext fun a => Fin.ext (by match a with | ⟨0, _⟩ => rfl)
  have e65 : idx_main_v65 (idx_main_v66 i) = (ix1 (i 1) : S64.Idx) := funext fun a => Fin.ext (by match a with | ⟨0, _⟩ => rfl)
  rw [val_main_v69_apply, val_main_v68_apply, val_main_cst_12_apply,
    val_main_v67_apply, val_main_v66_apply, val_main_v65_apply, e65,
    val_main_v64_apply, val_main_v63_apply, val_main_v62_apply, e62,
    val_main_v61_apply, val_main_v60_apply, val_main_v59_apply, e59, val_main_v58_apply, val_main_v57_apply, val_main_v56_apply, val_main_cst_11_apply,
    val_main_v55_apply, val_main_v54_apply, val_main_v53_apply, e53,
    val_main_v52_apply, val_main_v51_apply, val_main_v50_apply, e50]
  rfl

/-- Layer two's product: layer one's output times the second weight matrix. -/
theorem prod1 (x0 : (⟨S100000x100, .f32⟩ : BufTy).Contents (Elt Ideal)) (x1 : (⟨S2x1600000, .i32⟩ : BufTy).Contents (Elt Ideal))
    (x2 : (⟨S1600000, .f32⟩ : BufTy).Contents (Elt Ideal)) (x4 : (⟨S100x64, .f32⟩ : BufTy).Contents (Elt Ideal))
    (x5 x6 x7 x8 x9 : (⟨S64, .f32⟩ : BufTy).Contents (Elt Ideal)) (x10 : (⟨S64x64, .f32⟩ : BufTy).Contents (Elt Ideal)) :
    val_main_v70 (F := Ideal) x0 x1 x2 x4 x5 x6 x7 x8 x9 x10 = rowsTimes (val_main_v69 (F := Ideal) x0 x1 x2 x4 x5 x6 x7 x8 x9) x10 := by
  funext i
  rw [val_main_v70_apply]
  exact Finset.sum_congr rfl fun k _ => by
    rw [show lidx_main_v70 i k = ix2 (i 0) k from funext fun a => Fin.ext (by match a with | ⟨0, _⟩ => rfl | ⟨1, _⟩ => rfl),
      show ridx_main_v70 i k = ix2 k (i 1) from funext fun a => Fin.ext (by match a with | ⟨0, _⟩ => rfl | ⟨1, _⟩ => rfl)]
    rfl

/-- Layer two's bias, normalisation and rectifier. -/
theorem norm1 (x0 : (⟨S100000x100, .f32⟩ : BufTy).Contents (Elt Ideal)) (x1 : (⟨S2x1600000, .i32⟩ : BufTy).Contents (Elt Ideal))
    (x2 : (⟨S1600000, .f32⟩ : BufTy).Contents (Elt Ideal)) (x4 : (⟨S100x64, .f32⟩ : BufTy).Contents (Elt Ideal))
    (x5 x6 x7 x8 x9 : (⟨S64, .f32⟩ : BufTy).Contents (Elt Ideal)) (x10 : (⟨S64x64, .f32⟩ : BufTy).Contents (Elt Ideal))
    (x11 x12 x13 x14 x15 : (⟨S64, .f32⟩ : BufTy).Contents (Elt Ideal)) :
    val_main_v103 (F := Ideal) x0 x1 x2 x4 x5 x6 x7 x8 x9 x10 x11 x12 x13 x14 x15
      = shiftScaleRelu (val_main_v83 (F := Ideal) x0 x1 x2 x4 x5 x6 x7 x8 x9 x10) x11 x12 x13 x14 x15 := by
  funext i
  -- each parameter row is read at the column of `i`
  have e84 : idx_main_v84 (idx_main_v85 i) = (ix1 (i 1) : S64.Idx) := funext fun a => Fin.ext (by match a with | ⟨0, _⟩ => rfl)
  have e87 : idx_main_v87 (idx_main_v88 i) = (ix1 (i 1) : S64.Idx) := funext fun a => Fin.ext (by match a with | ⟨0, _⟩ => rfl)
  have e93 : idx_main_v93 (idx_main_v94 i) = (ix1 (i 1) : S64.Idx) := funext fun a => Fin.ext (by match a with | ⟨0, _⟩ => rfl)
  have e96 : idx_main_v96 (idx_main_v97 i) = (ix1 (i 1) : S64.Idx) := funext fun a => Fin.ext (by match a with | ⟨0, _⟩ => rfl)
  have e99 : idx_main_v99 (idx_main_v100 i) = (ix1 (i 1) : S64.Idx) := funext fun a => Fin.ext (by match a with | ⟨0, _⟩ => rfl)
  rw [val_main_v103_apply, val_main_v102_apply, val_main_cst_17_apply,
    val_main_v101_apply, val_main_v100_apply, val_main_v99_apply, e99,
    val_main_v98_apply, val_main_v97_apply, val_main_v96_apply, e96,
    val_main_v95_apply, val_main_v94_apply, val_main_v93_apply, e93, val_main_v92_apply, val_main_v91_apply, val_main_v90_apply, val_main_cst_16_apply,
    val_main_v89_apply, val_main_v88_apply, val_main_v87_apply, e87,
    val_main_v86_apply, val_main_v85_apply, val_main_v84_apply, e84]
  rfl

/-- Layer three's product: layer two's output times the third weight matrix. -/
theorem prod2 (x0 : (⟨S100000x100, .f32⟩ : BufTy).Contents (Elt Ideal)) (x1 : (⟨S2x1600000, .i32⟩ : BufTy).Contents (Elt Ideal))
    (x2 : (⟨S1600000, .f32⟩ : BufTy).Contents (Elt Ideal)) (x4 : (⟨S100x64, .f32⟩ : BufTy).Contents (Elt Ideal))
    (x5 x6 x7 x8 x9 : (⟨S64, .f32⟩ : BufTy).Contents (Elt Ideal)) (x10 : (⟨S64x64, .f32⟩ : BufTy).Contents (Elt Ideal))
    (x11 x12 x13 x14 x15 : (⟨S64, .f32⟩ : BufTy).Contents (Elt Ideal)) (x16 : (⟨S64x64, .f32⟩ : BufTy).Contents (Elt Ideal)) :
    val_main_v104 (F := Ideal) x0 x1 x2 x4 x5 x6 x7 x8 x9 x10 x11 x12 x13 x14 x15 x16 = rowsTimes (val_main_v103 (F := Ideal) x0 x1 x2 x4 x5 x6 x7 x8 x9 x10 x11 x12 x13 x14 x15) x16 := by
  funext i
  rw [val_main_v104_apply]
  exact Finset.sum_congr rfl fun k _ => by
    rw [show lidx_main_v104 i k = ix2 (i 0) k from funext fun a => Fin.ext (by match a with | ⟨0, _⟩ => rfl | ⟨1, _⟩ => rfl),
      show ridx_main_v104 i k = ix2 k (i 1) from funext fun a => Fin.ext (by match a with | ⟨0, _⟩ => rfl | ⟨1, _⟩ => rfl)]
    rfl

/-- Layer three's bias, normalisation and rectifier. -/
theorem norm2 (x0 : (⟨S100000x100, .f32⟩ : BufTy).Contents (Elt Ideal)) (x1 : (⟨S2x1600000, .i32⟩ : BufTy).Contents (Elt Ideal))
    (x2 : (⟨S1600000, .f32⟩ : BufTy).Contents (Elt Ideal)) (x4 : (⟨S100x64, .f32⟩ : BufTy).Contents (Elt Ideal))
    (x5 x6 x7 x8 x9 : (⟨S64, .f32⟩ : BufTy).Contents (Elt Ideal)) (x10 : (⟨S64x64, .f32⟩ : BufTy).Contents (Elt Ideal))
    (x11 x12 x13 x14 x15 : (⟨S64, .f32⟩ : BufTy).Contents (Elt Ideal)) (x16 : (⟨S64x64, .f32⟩ : BufTy).Contents (Elt Ideal))
    (x17 x18 x19 x20 x21 : (⟨S64, .f32⟩ : BufTy).Contents (Elt Ideal)) :
    val_main_v137 (F := Ideal) x0 x1 x2 x4 x5 x6 x7 x8 x9 x10 x11 x12 x13 x14 x15 x16 x17 x18 x19 x20 x21
      = shiftScaleRelu (val_main_v117 (F := Ideal) x0 x1 x2 x4 x5 x6 x7 x8 x9 x10 x11 x12 x13 x14 x15 x16) x17 x18 x19 x20 x21 := by
  funext i
  -- each parameter row is read at the column of `i`
  have e118 : idx_main_v118 (idx_main_v119 i) = (ix1 (i 1) : S64.Idx) := funext fun a => Fin.ext (by match a with | ⟨0, _⟩ => rfl)
  have e121 : idx_main_v121 (idx_main_v122 i) = (ix1 (i 1) : S64.Idx) := funext fun a => Fin.ext (by match a with | ⟨0, _⟩ => rfl)
  have e127 : idx_main_v127 (idx_main_v128 i) = (ix1 (i 1) : S64.Idx) := funext fun a => Fin.ext (by match a with | ⟨0, _⟩ => rfl)
  have e130 : idx_main_v130 (idx_main_v131 i) = (ix1 (i 1) : S64.Idx) := funext fun a => Fin.ext (by match a with | ⟨0, _⟩ => rfl)
  have e133 : idx_main_v133 (idx_main_v134 i) = (ix1 (i 1) : S64.Idx) := funext fun a => Fin.ext (by match a with | ⟨0, _⟩ => rfl)
  rw [val_main_v137_apply, val_main_v136_apply, val_main_cst_22_apply,
    val_main_v135_apply, val_main_v134_apply, val_main_v133_apply, e133,
    val_main_v132_apply, val_main_v131_apply, val_main_v130_apply, e130,
    val_main_v129_apply, val_main_v128_apply, val_main_v127_apply, e127, val_main_v126_apply, val_main_v125_apply, val_main_v124_apply, val_main_cst_21_apply,
    val_main_v123_apply, val_main_v122_apply, val_main_v121_apply, e121,
    val_main_v120_apply, val_main_v119_apply, val_main_v118_apply, e118]
  rfl

end Cert.ReferenceIdeal.Stages

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibRowLayout.lean ====
/-
  A vector laid out as a one-row matrix, two ways, and a one-row matrix copied down the rows.

  A bias vector of n entries meets an R×n table as a one-row matrix copied down the R rows. A kernel gets the row by a
  reshape of the vector to 1×n on the host and copies it with `vector.broadcast`; jnp gets it by a broadcast of the vector
  into dimension 1 of a 1×n matrix and a second broadcast down the rows. The two one-row matrices are the same matrix
  (`rowLayout`: entry (0, k) of either is entry k of the vector), and the kernel's copy, read at (r, k), is the row at
  (0, k) (`rowBroadcast_apply`). Stated for any entry type and any sizes; n = 1 is a bias cell met with a column.
-/
import Idealize.ShloMosaic.Lib.Pipeline.Value
import Idealize.ShloMosaic.Lib.ValueIdx

noncomputable section

namespace Idealize.ShloMosaic.RowLayout

open Idealize.ShloMosaic Idealize.ShloMosaic.ValueIdx

/-- A one-row matrix copied down R rows (a kernel's `vector.broadcast` of 1×n to R×n), read at (r, k), is the row at (0, k). -/
theorem rowBroadcast_apply {α : Type} {R n : ℕ} (x : (⟨2, ![1, n]⟩ : Shape).Idx → α)
    (h : (⟨2, ![1, n]⟩ : Shape).Broadcasts ⟨2, ![R, n]⟩) (r : Fin R) (k : Fin n) :
    broadcastTo ⟨2, ![R, n]⟩ x h (ix2 r k) = x (ix2 (0 : Fin 1) k) := by
  refine broadcastTo_apply x h (ix2 r k) (ix2 (0 : Fin 1) k) fun a => ?_
  match a with
  | ⟨0, _⟩ => rfl
  | ⟨1, _⟩ =>
    show k.val = if n = 1 then 0 else k.val
    split_ifs with hn
    · have := k.isLt; omega
    · rfl

/-- A vector of n entries broadcast into dimension 1 of a 1×n matrix, read at (z, k), is the vector at k. -/
theorem rowOfVector_apply {α : Type} {n : ℕ} (b : (⟨1, ![n]⟩ : Shape).Idx → α)
    (h : (⟨1, ![n]⟩ : Shape).BroadcastsInDim ⟨2, ![1, n]⟩ ![1]) (z : Fin 1) (k : Fin n) :
    broadcastInDim ⟨2, ![1, n]⟩ ![1] h b (ix2 z k) = b (ix1 k) := by
  refine broadcastInDim_apply ![1] h b (ix2 z k) (ix1 k) fun a => ?_
  match a with
  | ⟨0, _⟩ =>
    show k.val = if n = 1 then 0 else k.val
    split_ifs with hn
    · have := k.isLt; omega
    · rfl

/-- A vector of n entries reshaped to 1×n is the vector broadcast into dimension 1 of a 1×n matrix. -/
theorem rowLayout {α : Type} {n : ℕ} (b : (⟨1, ![n]⟩ : Shape).Idx → α) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ b h = broadcastInDim ⟨2, ![1, n]⟩ ![1] h' b := by
  funext j
  obtain ⟨z, k, rfl⟩ : ∃ (z : Fin 1) (k : Fin n), j = ix2 z k := ⟨j 0, j 1, eq_ix2 j⟩
  rw [rowOfVector_apply b h' z k]
  refine (shapeCast_addUnit_apply ![n] b h (ix2 z k)).trans (congrArg b (funext fun a => ?_))
  match a with
  | ⟨0, _⟩ => rfl

end Idealize.ShloMosaic.RowLayout

end
-- ==== Proof.Blocks.lean ====
/-
  The kernels' block computations, entry by entry over the extended reals.

  A product block: the body narrows both loaded blocks to bf16 (the identity on extended reals), and multiplies
  them into a zero block, so entry `(p, q)` of what it stores is `Σ_c x (p, c) · w (c, q)`.

  A normalisation block: the five parameter vectors of length 64 are laid out as one row and copied down the 5000
  rows of the block, so entry `(p, q)` of what it stores is the layer's entry function of `h (p, q)` and of the
  parameters at column `q`.
-/
import proofs.«126172_j16475494547815_1_alg».proof.Proof.Gen.KernelIdeal.Skeleton
import proofs.«126172_j16475494547815_1_alg».proof.Proof.Spec
import proofs.«126172_j16475494547815_1_alg».proof.Proof.LibPlainMatmul
import proofs.«126172_j16475494547815_1_alg».proof.Proof.LibRowLayout
import Idealize.ShloMosaic.Lib.Pipeline.Value
import Idealize.ShloMosaic.Lib.ValueLayout

noncomputable section

namespace Cert.KernelIdeal.Blocks

open Idealize.ShloMosaic Idealize.ShloMosaic.ValueIdx Cert.KernelIdeal Cert.KernelIdeal.Gen Cert.GraphLayer
open Cert.PointConv Idealize.ShloMosaic.RowLayout

/-- The first layer's product block at `(p, q)`: the sum over the 100 input features. -/
theorem product100_apply (x : Vec Ideal S5000x100 .f32) (w : Vec Ideal S100x64 .f32) (p : Fin 5000) (q : Fin 64) :
    k0_pay1 (F := Ideal) x w (ix2 p q) = ∑ c : Fin 100, x (ix2 p c) * w (ix2 c q) := by
  unfold k0_pay1
  exact plainMatmul_zero_apply (R := 5000) (n := 100) (k := 64) dot_S5000x100_S100x64_S5000x64_1_0_0_1_n_n.wf none _ _ p q

/-- A hidden layer's product block at `(p, q)`: the sum over the 64 hidden features. -/
theorem product64_apply (x : Vec Ideal S5000x64 .f32) (w : Vec Ideal S64x64 .f32) (p : Fin 5000) (q : Fin 64) :
    k2_pay1 (F := Ideal) x w (ix2 p q) = ∑ c : Fin 64, x (ix2 p c) * w (ix2 c q) := by
  unfold k2_pay1
  refine (plainMatmul_zero_apply (R := 5000) (n := 64) (k := 64) dot_S5000x64_S64x64_S5000x64_1_0_0_1_n_n.wf none _ _ p q).trans ?_
  refine Finset.sum_congr rfl fun c _ => ?_
  rw [truncf_apply, truncf_apply, shapeCast_self]

/-- A vector of 64 entries laid out as one row, read at `(z, q)`, is the vector at `q`. -/
theorem rowOfVec_apply (b : Vec Ideal S64 .f32) (z : Fin 1) (q : Fin 64) :
    shapeCast S1x64 b shapeCasts_S64_S1x64 (ix2 z q) = b (ix1 q) :=
  (shapeCast_addUnit_apply ![64] b shapeCasts_S64_S1x64 (ix2 z q)).trans
    (congrArg b (funext fun a => by match a with | ⟨0, _⟩ => rfl))

/-- That row copied down the 5000 rows of a block, read at `(p, q)`, is the vector at `q`. -/
theorem rowCopy_apply (b : Vec Ideal S64 .f32) (p : Fin 5000) (q : Fin 64) :
    broadcastTo S5000x64 (shapeCast S1x64 b shapeCasts_S64_S1x64) broadcasts_S1x64_S5000x64 (ix2 p q) = b (ix1 q) :=
  (rowBroadcast_apply _ broadcasts_S1x64_S5000x64 p q).trans (rowOfVec_apply b 0 q)

/-- A normalisation block at `(p, q)`: the layer's entry function of `h (p, q)` and column `q`'s parameters
    (bias `b`, variance `v`, mean `μ`, gain `g`, shift `β`, in the order the body loads them). -/
theorem normalise_apply (h : Vec Ideal S5000x64 .f32) (b v μ g β : Vec Ideal S64 .f32) (p : Fin 5000) (q : Fin 64) :
    k1_pay1 (F := Ideal) h b v μ g β (ix2 p q)
      = shiftScaleReluEntry (h (ix2 p q)) (b (ix1 q)) (g (ix1 q)) (β (ix1 q)) (μ (ix1 q)) (v (ix1 q)) := by
  unfold k1_pay1 shiftScaleReluEntry
  show max ((((shapeCast S5000x64 h shapeCasts_S5000x64_S5000x64 (ix2 p q)
        + broadcastTo S5000x64 (shapeCast S1x64 b shapeCasts_S64_S1x64) broadcasts_S1x64_S5000x64 (ix2 p q))
        - broadcastTo S5000x64 (shapeCast S1x64 μ shapeCasts_S64_S1x64) broadcasts_S1x64_S5000x64 (ix2 p q))
        * broadcastTo S5000x64 (rsqrt (addf (shapeCast S1x64 v shapeCasts_S64_S1x64) (broadcast S1x64 (Scalar.ofBits (F := Ideal) .f32 0x3727C5AC#32)))) broadcasts_S1x64_S5000x64 (ix2 p q))
        * broadcastTo S5000x64 (shapeCast S1x64 g shapeCasts_S64_S1x64) broadcasts_S1x64_S5000x64 (ix2 p q)
        + broadcastTo S5000x64 (shapeCast S1x64 β shapeCasts_S64_S1x64) broadcasts_S1x64_S5000x64 (ix2 p q))
      (Scalar.ofBits (F := Ideal) .f32 0x00000000#32) = _
  rw [rowCopy_apply b p q, rowCopy_apply μ p q, rowCopy_apply g p q, rowCopy_apply β p q, shapeCast_self,
    rowBroadcast_apply _ broadcasts_S1x64_S5000x64 p q]
  show max ((((h (ix2 p q) + b (ix1 q)) - μ (ix1 q))
        * Ideal.rsqrt (shapeCast S1x64 v shapeCasts_S64_S1x64 (ix2 (0 : Fin 1) q) + Ideal.ofBits .f32 0x3727C5AC#32))
        * g (ix1 q) + β (ix1 q)) (Ideal.ofBits .f32 0x00000000#32) = _
  rw [rowOfVec_apply v 0 q]

/-- The second and third normalisation blocks are the first's, the same text. -/
theorem normalise'_apply (h : Vec Ideal S5000x64 .f32) (b v μ g β : Vec Ideal S64 .f32) (p : Fin 5000) (q : Fin 64) :
    k3_pay1 (F := Ideal) h b v μ g β (ix2 p q)
      = shiftScaleReluEntry (h (ix2 p q)) (b (ix1 q)) (g (ix1 q)) (β (ix1 q)) (μ (ix1 q)) (v (ix1 q)) :=
  normalise_apply h b v μ g β p q

theorem normalise''_apply (h : Vec Ideal S5000x64 .f32) (b v μ g β : Vec Ideal S64 .f32) (p : Fin 5000) (q : Fin 64) :
    k5_pay1 (F := Ideal) h b v μ g β (ix2 p q)
      = shiftScaleReluEntry (h (ix2 p q)) (b (ix1 q)) (g (ix1 q)) (β (ix1 q)) (μ (ix1 q)) (v (ix1 q)) :=
  normalise_apply h b v μ g β p q

/-- The third layer's product block is the second's, the same text. -/
theorem product64'_apply (x : Vec Ideal S5000x64 .f32) (w : Vec Ideal S64x64 .f32) (p : Fin 5000) (q : Fin 64) :
    k4_pay1 (F := Ideal) x w (ix2 p q) = ∑ c : Fin 64, x (ix2 p c) * w (ix2 c q) :=
  product64_apply x w p q

end Cert.KernelIdeal.Blocks

end
-- ==== Proof.Product0.lean ====
/-
  The first layer's product region, as one whole-array function of what the region finds.

  The region visits 20 points; point `t` reads rows `5000 t … 5000 t + 4999` of the node features and the whole
  weight matrix, and writes back rows `5000 t … 5000 t + 4999` of the result. What it writes back is the block of
  `rowsTimes` of the two arrays: a row of the product depends only on the same row of the features. The 20 row
  blocks tile the 100000 rows, so after the region the result array is `rowsTimes` of the features and the weights,
  whatever the contents `V` the region was entered with.
-/
import proofs.«126172_j16475494547815_1_alg».proof.Proof.Gen.KernelIdeal.Frame
import proofs.«126172_j16475494547815_1_alg».proof.Proof.Blocks
import Idealize.ShloMosaic.Lib.Pipeline.Value

set_option maxRecDepth 16384

noncomputable section

namespace Cert.KernelIdeal.Product0

open Cert.KernelIdeal Cert.KernelIdeal.Gen Cert.KernelIdeal.Blocks Cert.GraphLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the grid: the feature and result windows move down one row block per point, the
    weight window stays. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t` is rows `5000 t …` of the feature array. -/
theorem featureBlock (c : Dev nD) (t : Fin cfg0.N) (y : S5000x100.Idx) (k : S100000x100.Idx)
    (hk0 : (k 0).val = 5000 * t.val + (y 0).val) (hk1 : (k 1).val = (y 1).val) :
    (iblk0 V c 0 t : Vec Ideal S5000x100 .f32) y = (V c main_arg0 : S100000x100.Idx → Elt Ideal .f32) k := by
  obtain ⟨e0, e1, -, -, -, -⟩ := blockIndex t
  unfold iblk0
  rw [View.read_apply]
  show V c main_arg0 _ = V c main_arg0 _
  congr 1
  funext a
  apply Fin.ext
  match a with
  | ⟨0, _⟩ => show win0_0.index t 0 * 5000 + 1 * (y 0).val = (k 0).val; rw [e0, hk0]; omega
  | ⟨1, _⟩ => show win0_0.index t 1 * 100 + 1 * (y 1).val = (k 1).val; rw [e1, hk1]; omega

/-- The weight block at every point is the whole weight array. -/
theorem weightBlock (c : Dev nD) (t : Fin cfg0.N) (y : S100x64.Idx) :
    (iblk0 V c 1 t : Vec Ideal S100x64 .f32) y = (V c main_arg4 : S100x64.Idx → Elt Ideal .f32) y := by
  obtain ⟨-, -, e2, e3, -, -⟩ := blockIndex t
  unfold iblk0
  rw [View.read_apply]
  show V c main_arg4 _ = V c main_arg4 _
  congr 1
  funext a
  apply Fin.ext
  match a with
  | ⟨0, _⟩ => show win0_1.index t 0 * 100 + 1 * (y 0).val = (y 0).val; rw [e2]; omega
  | ⟨1, _⟩ => show win0_1.index t 1 * 64 + 1 * (y 1).val = (y 1).val; rw [e3]; omega

/-- One entry of a written block, over the literal index types: if the loaded feature block holds, in the row of
    `y`, the feature array's row of `k`, and the loaded weight block is the weight array, then the body's value at
    `y` is the product's entry at `k` (same column). -/
theorem pointValue (A : FVec Ideal S100000x100 .f32) (B : FVec Ideal S100x64 .f32)
    (x : Vec Ideal S5000x100 .f32) (w : Vec Ideal S100x64 .f32) (y : S5000x64.Idx) (k : S100000x64.Idx)
    (hx : ∀ (u : S5000x100.Idx) (v : S100000x100.Idx), (u 0).val = (y 0).val → (v 0).val = (k 0).val → (v 1).val = (u 1).val → x u = A v)
    (hw : ∀ u, w u = B u) (hk1 : (k 1).val = (y 1).val) :
    k0_pay1 (F := Ideal) x w y = rowsTimes A B k := by
  obtain ⟨p, q, rfl⟩ : ∃ (p : Fin 5000) (q : Fin 64), y = ix2 p q := ⟨y 0, y 1, eq_ix2 y⟩
  obtain ⟨r, o, rfl⟩ : ∃ (r : Fin 100000) (o : Fin 64), k = ix2 r o := ⟨k 0, k 1, eq_ix2 k⟩
  obtain rfl : o = q := Fin.ext hk1
  rw [rowsTimes_apply, product100_apply]
  refine Finset.sum_congr rfl fun c _ => ?_
  rw [hx (ix2 p c) (ix2 r c) rfl rfl rfl, hw]

/-- What point `t` writes back is block `t` of the product of the two arrays as the region finds them. -/
theorem flushed (c : Dev nD) (t : Fin cfg0.N) :
    (dat0 V c).flushed 2 t = ((cfg0.win 2).blk t).view.read (Elt Ideal)
      (rowsTimes (V c main_arg0 : FVec Ideal S100000x100 .f32) (V c main_arg4 : FVec Ideal S100x64 .f32)) := by
  show (cfg0.win 2).cut (grid0.coords t) ((dat0 V c).after 2 t) = _
  rw [after0_2]
  unfold out0_2
  rw [View.canon_unit_zero zeroOffsets]
  simp only [View.ld_unit_zero (S := S5000x100) zeroOffsets, View.ld_unit_zero (S := S100x64) zeroOffsets]
  obtain ⟨-, -, -, -, e4, e5⟩ := blockIndex t
  funext j
  show k0_pay1 (F := Ideal) (iblk0 V c 0 t) (iblk0 V c 1 t) j = rowsTimes _ _ (((cfg0.win 2).blk t).view.emb j)
  refine pointValue _ _ (iblk0 V c 0 t) (iblk0 V c 1 t) j (((cfg0.win 2).blk t).view.emb j) ?_ (fun u => weightBlock V c t u) ?_
  · intro u v h0 h1 h2
    refine featureBlock V c t u v ?_ h2
    have e : ((((cfg0.win 2).blk t).view.emb j) 0).val = win0_2.index t 0 * 5000 + 1 * (j 0).val := rfl
    rw [h1, e, e4, h0]; omega
  · show win0_2.index t 1 * 64 + 1 * (j 1).val = (j 1).val
    rw [e5]; omega

/-- An index of the result array is in point `t`'s block iff its row is among that point's 5000 rows. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v36).slice (win0_2.rect t)).set ↔ _
  rw [View.set_slice_whole, Rect.mem_set_unit]
  exact Iff.rfl

/-- Every row is in the block of the point `row / 5000`. -/
theorem covered (i : S100000x64.Idx) : ∃ t : Fin cfg0.N, (cfg0.win 2).flush t = true ∧ i ∈ ((cfg0.win 2).blk t).view.set := by
  have hN : cfg0.N = 20 := N_0
  have hi0 : (i 0).val < 100000 := (i 0).isLt
  have hi1 : (i 1).val < 64 := (i 1).isLt
  refine ⟨⟨(i 0).val / 5000, by omega⟩, flush0_2 _, ?_⟩
  rw [mem_block]
  obtain ⟨-, -, -, -, e4, e5⟩ := blockIndex ⟨(i 0).val / 5000, by omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ _ ∧ _ < (i 0).val / 5000 * 5000 + 5000; omega
  | ⟨1, _⟩ => show win0_2.index _ (1 : Fin 2) * 64 ≤ (i 1).val ∧ (i 1).val < win0_2.index _ (1 : Fin 2) * 64 + 64; rw [e5]; omega

/-- After the region the result array is the product of the feature and weight arrays it was entered with. -/
theorem result (c : Dev nD) : (dat0 V c).arrAt 2 cfg0.N
    = rowsTimes (V c main_arg0 : FVec Ideal S100000x100 .f32) (V c main_arg4 : FVec Ideal S100x64 .f32) :=
  (dat0 V c).arrAt_eq_of_cover 2 _ (fun t _ => flushed V c t) covered

end Cert.KernelIdeal.Product0

end
-- ==== Proof.Normalise1.lean ====
/-
  The first layer's normalisation region, as one whole-array function of what the region finds.

  The region visits 20 points; point `t` reads rows `5000 t … 5000 t + 4999` of the aggregated features and the
  five whole parameter vectors, and writes back the same rows of the result. What it writes back is the block of
  `shiftScaleRelu` of the six arrays: an entry of the result depends only on the same entry of the features and on
  its column's parameters. The 20 row blocks tile the 100000 rows, so after the region the result array is
  `shiftScaleRelu` of the features and the parameters, whatever the contents `V` the region was entered with.
-/
import proofs.«126172_j16475494547815_1_alg».proof.Proof.Gen.KernelIdeal.Frame
import proofs.«126172_j16475494547815_1_alg».proof.Proof.Blocks
import Idealize.ShloMosaic.Lib.Pipeline.Value

set_option maxRecDepth 16384

noncomputable section

namespace Cert.KernelIdeal.Normalise1

open Cert.KernelIdeal Cert.KernelIdeal.Gen Cert.KernelIdeal.Blocks Cert.GraphLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl
theorem zeroOffset : (![0] : Fin 1 → Nat) = fun _ => 0 := funext fun a => by fin_cases a <;> rfl

/-- The printed index maps over the grid: the feature and result windows move down one row block per point. -/
theorem blockIndex : ∀ t : Fin cfg1.N, win1_0.index t (0 : Fin 2) = t.val ∧ win1_0.index t (1 : Fin 2) = 0
    ∧ win1_6.index t (0 : Fin 2) = t.val ∧ win1_6.index t (1 : Fin 2) = 0 :=
  (by decide +kernel : ∀ t : Fin grid1.N, _)

/-- The five parameter windows stay at the one block of their vectors. -/
theorem vectorIndex : ∀ t : Fin cfg1.N, win1_1.index t (0 : Fin 1) = 0 ∧ win1_2.index t (0 : Fin 1) = 0
    ∧ win1_3.index t (0 : Fin 1) = 0 ∧ win1_4.index t (0 : Fin 1) = 0 ∧ win1_5.index t (0 : Fin 1) = 0 :=
  (by decide +kernel : ∀ t : Fin grid1.N, _)

/-- The feature block at point `t` is rows `5000 t …` of the feature array. -/
theorem featureBlock (c : Dev nD) (t : Fin cfg1.N) (y : S5000x64.Idx) (k : S100000x64.Idx)
    (hk0 : (k 0).val = 5000 * t.val + (y 0).val) (hk1 : (k 1).val = (y 1).val) :
    (iblk1 V c 0 t : Vec Ideal S5000x64 .f32) y = (V c main_v49 : S100000x64.Idx → Elt Ideal .f32) k := by
  obtain ⟨e0, e1, -, -⟩ := blockIndex t
  unfold iblk1
  rw [View.read_apply]
  show V c main_v49 _ = V c main_v49 _
  congr 1
  funext a
  apply Fin.ext
  match a with
  | ⟨0, _⟩ => show win1_0.index t 0 * 5000 + 1 * (y 0).val = (k 0).val; rw [e0, hk0]; omega
  | ⟨1, _⟩ => show win1_0.index t 1 * 64 + 1 * (y 1).val = (k 1).val; rw [e1, hk1]; omega

/-- The bias window at every point is the whole vector. -/
theorem biasBlock (c : Dev nD) (t : Fin cfg1.N) (y : S64.Idx) :
    (iblk1 V c 1 t : Vec Ideal S64 .f32) y = (V c main_arg5 : S64.Idx → Elt Ideal .f32) y := by
  have e := (vectorIndex t).1
  unfold iblk1
  rw [View.read_apply]
  show V c main_arg5 _ = V c main_arg5 _
  congr 1
  funext a
  apply Fin.ext
  match a with
  | ⟨0, _⟩ => show win1_1.index t 0 * 64 + 1 * (y 0).val = (y 0).val; rw [e]; omega

/-- The gain window at every point is the whole vector. -/
theorem gainBlock (c : Dev nD) (t : Fin cfg1.N) (y : S64.Idx) :
    (iblk1 V c 2 t : Vec Ideal S64 .f32) y = (V c main_arg6 : S64.Idx → Elt Ideal .f32) y := by
  have e := (vectorIndex t).2.1
  unfold iblk1
  rw [View.read_apply]
  show V c main_arg6 _ = V c main_arg6 _
  congr 1
  funext a
  apply Fin.ext
  match a with
  | ⟨0, _⟩ => show win1_2.index t 0 * 64 + 1 * (y 0).val = (y 0).val; rw [e]; omega

/-- The shift window at every point is the whole vector. -/
theorem shiftBlock (c : Dev nD) (t : Fin cfg1.N) (y : S64.Idx) :
    (iblk1 V c 3 t : Vec Ideal S64 .f32) y = (V c main_arg7 : S64.Idx → Elt Ideal .f32) y := by
  have e := (vectorIndex t).2.2.1
  unfold iblk1
  rw [View.read_apply]
  show V c main_arg7 _ = V c main_arg7 _
  congr 1
  funext a
  apply Fin.ext
  match a with
  | ⟨0, _⟩ => show win1_3.index t 0 * 64 + 1 * (y 0).val = (y 0).val; rw [e]; omega

/-- The mean window at every point is the whole vector. -/
theorem meanBlock (c : Dev nD) (t : Fin cfg1.N) (y : S64.Idx) :
    (iblk1 V c 4 t : Vec Ideal S64 .f32) y = (V c main_arg8 : S64.Idx → Elt Ideal .f32) y := by
  have e := (vectorIndex t).2.2.2.1
  unfold iblk1
  rw [View.read_apply]
  show V c main_arg8 _ = V c main_arg8 _
  congr 1
  funext a
  apply Fin.ext
  match a with
  | ⟨0, _⟩ => show win1_4.index t 0 * 64 + 1 * (y 0).val = (y 0).val; rw [e]; omega

/-- The variance window at every point is the whole vector. -/
theorem varianceBlock (c : Dev nD) (t : Fin cfg1.N) (y : S64.Idx) :
    (iblk1 V c 5 t : Vec Ideal S64 .f32) y = (V c main_arg9 : S64.Idx → Elt Ideal .f32) y := by
  have e := (vectorIndex t).2.2.2.2
  unfold iblk1
  rw [View.read_apply]
  show V c main_arg9 _ = V c main_arg9 _
  congr 1
  funext a
  apply Fin.ext
  match a with
  | ⟨0, _⟩ => show win1_5.index t 0 * 64 + 1 * (y 0).val = (y 0).val; rw [e]; omega

/-- One entry of a written block, over the literal index types: if the loaded feature block holds at `y` the
    feature array's entry at `k` (same column), and the five loaded vectors are the five parameter arrays, then the
    body's value at `y` is the layer function's entry at `k`. -/
theorem pointValue (H : FVec Ideal S100000x64 .f32) (B G S M Vr : FVec Ideal S64 .f32)
    (x : Vec Ideal S5000x64 .f32) (b v μ g β : Vec Ideal S64 .f32) (y : S5000x64.Idx) (k : S100000x64.Idx)
    (hx : x y = H k) (hb : ∀ u, b u = B u) (hg : ∀ u, g u = G u) (hβ : ∀ u, β u = S u) (hμ : ∀ u, μ u = M u)
    (hv : ∀ u, v u = Vr u) (hk1 : (k 1).val = (y 1).val) :
    k1_pay1 (F := Ideal) x b v μ g β y = shiftScaleRelu H B G S M Vr k := by
  obtain ⟨p, q, rfl⟩ : ∃ (p : Fin 5000) (q : Fin 64), y = ix2 p q := ⟨y 0, y 1, eq_ix2 y⟩
  obtain ⟨r, o, rfl⟩ : ∃ (r : Fin 100000) (o : Fin 64), k = ix2 r o := ⟨k 0, k 1, eq_ix2 k⟩
  obtain rfl : o = q := Fin.ext hk1
  rw [shiftScaleRelu_apply, normalise_apply, hx, hb, hg, hβ, hμ, hv]

/-- What point `t` writes back is block `t` of the layer function of the six arrays as the region finds them. -/
theorem flushed (c : Dev nD) (t : Fin cfg1.N) :
    (dat1 V c).flushed 6 t = ((cfg1.win 6).blk t).view.read (Elt Ideal)
      (shiftScaleRelu (V c main_v49 : FVec Ideal S100000x64 .f32) (V c main_arg5 : FVec Ideal S64 .f32) (V c main_arg6 : FVec Ideal S64 .f32)
        (V c main_arg7 : FVec Ideal S64 .f32) (V c main_arg8 : FVec Ideal S64 .f32) (V c main_arg9 : FVec Ideal S64 .f32)) := by
  show (cfg1.win 6).cut (grid1.coords t) ((dat1 V c).after 6 t) = _
  rw [after1_6]
  unfold out1_6
  rw [View.canon_unit_zero zeroOffsets]
  simp only [View.ld_unit_zero (S := S5000x64) zeroOffsets, View.ld_unit_zero (S := S64) zeroOffset]
  obtain ⟨-, -, e2, e3⟩ := blockIndex t
  funext j
  show k1_pay1 (F := Ideal) (iblk1 V c 0 t) (iblk1 V c 1 t) (iblk1 V c 5 t) (iblk1 V c 4 t) (iblk1 V c 2 t) (iblk1 V c 3 t) j
    = shiftScaleRelu _ _ _ _ _ _ (((cfg1.win 6).blk t).view.emb j)
  have e0 : ((((cfg1.win 6).blk t).view.emb j) 0).val = win1_6.index t 0 * 5000 + 1 * (j 0).val := rfl
  have e1 : ((((cfg1.win 6).blk t).view.emb j) 1).val = win1_6.index t 1 * 64 + 1 * (j 1).val := rfl
  refine pointValue _ _ _ _ _ _ (iblk1 V c 0 t) (iblk1 V c 1 t) (iblk1 V c 5 t) (iblk1 V c 4 t) (iblk1 V c 2 t) (iblk1 V c 3 t) j
    (((cfg1.win 6).blk t).view.emb j) (featureBlock V c t j _ ?_ ?_) (fun u => biasBlock V c t u) (fun u => gainBlock V c t u)
    (fun u => shiftBlock V c t u) (fun u => meanBlock V c t u) (fun u => varianceBlock V c t u) ?_
  · rw [e0, e2]; omega
  · rw [e1, e3]; omega
  · rw [e1, e3]; omega

/-- An index of the result array is in point `t`'s block iff its row is among that point's 5000 rows. -/
theorem mem_block (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v50).slice (win1_6.rect t)).set ↔ _
  rw [View.set_slice_whole, Rect.mem_set_unit]
  exact Iff.rfl

/-- Every row is in the block of the point `row / 5000`. -/
theorem covered (i : S100000x64.Idx) : ∃ t : Fin cfg1.N, (cfg1.win 6).flush t = true ∧ i ∈ ((cfg1.win 6).blk t).view.set := by
  have hN : cfg1.N = 20 := N_1
  have hi0 : (i 0).val < 100000 := (i 0).isLt
  have hi1 : (i 1).val < 64 := (i 1).isLt
  refine ⟨⟨(i 0).val / 5000, by omega⟩, flush1_6 _, ?_⟩
  rw [mem_block]
  obtain ⟨-, -, e2, e3⟩ := blockIndex ⟨(i 0).val / 5000, by omega⟩
  intro a
  match a with
  | ⟨0, _⟩ => show win1_6.index _ (0 : Fin 2) * 5000 ≤ (i 0).val ∧ (i 0).val < win1_6.index _ (0 : Fin 2) * 5000 + 5000; rw [e2]; show (i 0).val / 5000 * 5000 ≤ _ ∧ _ < (i 0).val / 5000 * 5000 + 5000; omega
  | ⟨1, _⟩ => show win1_6.index _ (1 : Fin 2) * 64 ≤ (i 1).val ∧ (i 1).val < win1_6.index _ (1 : Fin 2) * 64 + 64; rw [e3]; omega

/-- After the region the result array is the layer function of the arrays it was entered with. -/
theorem result (c : Dev nD) : (dat1 V c).arrAt 6 cfg1.N
    = shiftScaleRelu (V c main_v49 : FVec Ideal S100000x64 .f32) (V c main_arg5 : FVec Ideal S64 .f32) (V c main_arg6 : FVec Ideal S64 .f32)
        (V c main_arg7 : FVec Ideal S64 .f32) (V c main_arg8 : FVec Ideal S64 .f32) (V c main_arg9 : FVec Ideal S64 .f32) :=
  (dat1 V c).arrAt_eq_of_cover 6 _ (fun t _ => flushed V c t) covered

end Cert.KernelIdeal.Normalise1

end
-- ==== Proof.Product2.lean ====
/-
  The second layer's product region, as one whole-array function of what the region finds.

  The region visits 20 points; point `t` reads rows `5000 t … 5000 t + 4999` of the hidden features and the whole
  weight matrix, and writes back rows `5000 t … 5000 t + 4999` of the result. What it writes back is the block of
  `rowsTimes` of the two arrays: a row of the product depends only on the same row of the features. The 20 row
  blocks tile the 100000 rows, so after the region the result array is `rowsTimes` of the features and the weights,
  whatever the contents `V` the region was entered with.
-/
import proofs.«126172_j16475494547815_1_alg».proof.Proof.Gen.KernelIdeal.Frame
import proofs.«126172_j16475494547815_1_alg».proof.Proof.Blocks
import Idealize.ShloMosaic.Lib.Pipeline.Value

set_option maxRecDepth 16384

noncomputable section

namespace Cert.KernelIdeal.Product2

open Cert.KernelIdeal Cert.KernelIdeal.Gen Cert.KernelIdeal.Blocks Cert.GraphLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the grid: the feature and result windows move down one row block per point, the
    weight window stays. -/
theorem blockIndex : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The feature block at point `t` is rows `5000 t …` of the feature array. -/
theorem featureBlock (c : Dev nD) (t : Fin cfg2.N) (y : S5000x64.Idx) (k : S100000x64.Idx)
    (hk0 : (k 0).val = 5000 * t.val + (y 0).val) (hk1 : (k 1).val = (y 1).val) :
    (iblk2 V c 0 t : Vec Ideal S5000x64 .f32) y = (V c main_v50 : S100000x64.Idx → Elt Ideal .f32) k := by
  obtain ⟨e0, e1, -, -, -, -⟩ := blockIndex t
  unfold iblk2
  rw [View.read_apply]
  show V c main_v50 _ = V c main_v50 _
  congr 1
  funext a
  apply Fin.ext
  match a with
  | ⟨0, _⟩ => show win2_0.index t 0 * 5000 + 1 * (y 0).val = (k 0).val; rw [e0, hk0]; omega
  | ⟨1, _⟩ => show win2_0.index t 1 * 64 + 1 * (y 1).val = (k 1).val; rw [e1, hk1]; omega

/-- The weight block at every point is the whole weight array. -/
theorem weightBlock (c : Dev nD) (t : Fin cfg2.N) (y : S64x64.Idx) :
    (iblk2 V c 1 t : Vec Ideal S64x64 .f32) y = (V c main_arg10 : S64x64.Idx → Elt Ideal .f32) y := by
  obtain ⟨-, -, e2, e3, -, -⟩ := blockIndex t
  unfold iblk2
  rw [View.read_apply]
  show V c main_arg10 _ = V c main_arg10 _
  congr 1
  funext a
  apply Fin.ext
  match a with
  | ⟨0, _⟩ => show win2_1.index t 0 * 64 + 1 * (y 0).val = (y 0).val; rw [e2]; omega
  | ⟨1, _⟩ => show win2_1.index t 1 * 64 + 1 * (y 1).val = (y 1).val; rw [e3]; omega

/-- One entry of a written block, over the literal index types: if the loaded feature block holds, in the row of
    `y`, the feature array's row of `k`, and the loaded weight block is the weight array, then the body's value at
    `y` is the product's entry at `k` (same column). -/
theorem pointValue (A : FVec Ideal S100000x64 .f32) (B : FVec Ideal S64x64 .f32)
    (x : Vec Ideal S5000x64 .f32) (w : Vec Ideal S64x64 .f32) (y : S5000x64.Idx) (k : S100000x64.Idx)
    (hx : ∀ (u : S5000x64.Idx) (v : S100000x64.Idx), (u 0).val = (y 0).val → (v 0).val = (k 0).val → (v 1).val = (u 1).val → x u = A v)
    (hw : ∀ u, w u = B u) (hk1 : (k 1).val = (y 1).val) :
    k2_pay1 (F := Ideal) x w y = rowsTimes A B k := by
  obtain ⟨p, q, rfl⟩ : ∃ (p : Fin 5000) (q : Fin 64), y = ix2 p q := ⟨y 0, y 1, eq_ix2 y⟩
  obtain ⟨r, o, rfl⟩ : ∃ (r : Fin 100000) (o : Fin 64), k = ix2 r o := ⟨k 0, k 1, eq_ix2 k⟩
  obtain rfl : o = q := Fin.ext hk1
  rw [rowsTimes_apply, product64_apply]
  refine Finset.sum_congr rfl fun c _ => ?_
  rw [hx (ix2 p c) (ix2 r c) rfl rfl rfl, hw]

/-- What point `t` writes back is block `t` of the product of the two arrays as the region finds them. -/
theorem flushed (c : Dev nD) (t : Fin cfg2.N) :
    (dat2 V c).flushed 2 t = ((cfg2.win 2).blk t).view.read (Elt Ideal)
      (rowsTimes (V c main_v50 : FVec Ideal S100000x64 .f32) (V c main_arg10 : FVec Ideal S64x64 .f32)) := by
  show (cfg2.win 2).cut (grid2.coords t) ((dat2 V c).after 2 t) = _
  rw [after2_2]
  unfold out2_2
  rw [View.canon_unit_zero zeroOffsets]
  simp only [View.ld_unit_zero (S := S5000x64) zeroOffsets, View.ld_unit_zero (S := S64x64) zeroOffsets]
  obtain ⟨-, -, -, -, e4, e5⟩ := blockIndex t
  funext j
  show k2_pay1 (F := Ideal) (iblk2 V c 0 t) (iblk2 V c 1 t) j = rowsTimes _ _ (((cfg2.win 2).blk t).view.emb j)
  refine pointValue _ _ (iblk2 V c 0 t) (iblk2 V c 1 t) j (((cfg2.win 2).blk t).view.emb j) ?_ (fun u => weightBlock V c t u) ?_
  · intro u v h0 h1 h2
    refine featureBlock V c t u v ?_ h2
    have e : ((((cfg2.win 2).blk t).view.emb j) 0).val = win2_2.index t 0 * 5000 + 1 * (j 0).val := rfl
    rw [h1, e, e4, h0]; omega
  · show win2_2.index t 1 * 64 + 1 * (j 1).val = (j 1).val
    rw [e5]; omega

/-- An index of the result array is in point `t`'s block iff its row is among that point's 5000 rows. -/
theorem mem_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v51).slice (win2_2.rect t)).set ↔ _
  rw [View.set_slice_whole, Rect.mem_set_unit]
  exact Iff.rfl

/-- Every row is in the block of the point `row / 5000`. -/
theorem covered (i : S100000x64.Idx) : ∃ t : Fin cfg2.N, (cfg2.win 2).flush t = true ∧ i ∈ ((cfg2.win 2).blk t).view.set := by
  have hN : cfg2.N = 20 := N_2
  have hi0 : (i 0).val < 100000 := (i 0).isLt
  have hi1 : (i 1).val < 64 := (i 1).isLt
  refine ⟨⟨(i 0).val / 5000, by omega⟩, flush2_2 _, ?_⟩
  rw [mem_block]
  obtain ⟨-, -, -, -, e4, e5⟩ := blockIndex ⟨(i 0).val / 5000, by omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ _ ∧ _ < (i 0).val / 5000 * 5000 + 5000; omega
  | ⟨1, _⟩ => show win2_2.index _ (1 : Fin 2) * 64 ≤ (i 1).val ∧ (i 1).val < win2_2.index _ (1 : Fin 2) * 64 + 64; rw [e5]; omega

/-- After the region the result array is the product of the feature and weight arrays it was entered with. -/
theorem result (c : Dev nD) : (dat2 V c).arrAt 2 cfg2.N
    = rowsTimes (V c main_v50 : FVec Ideal S100000x64 .f32) (V c main_arg10 : FVec Ideal S64x64 .f32) :=
  (dat2 V c).arrAt_eq_of_cover 2 _ (fun t _ => flushed V c t) covered

end Cert.KernelIdeal.Product2

end
-- ==== Proof.Normalise3.lean ====
/-
  The second layer's normalisation region, as one whole-array function of what the region finds.

  The region visits 20 points; point `t` reads rows `5000 t … 5000 t + 4999` of the aggregated features and the
  five whole parameter vectors, and writes back the same rows of the result. What it writes back is the block of
  `shiftScaleRelu` of the six arrays: an entry of the result depends only on the same entry of the features and on
  its column's parameters. The 20 row blocks tile the 100000 rows, so after the region the result array is
  `shiftScaleRelu` of the features and the parameters, whatever the contents `V` the region was entered with.
-/
import proofs.«126172_j16475494547815_1_alg».proof.Proof.Gen.KernelIdeal.Frame
import proofs.«126172_j16475494547815_1_alg».proof.Proof.Blocks
import Idealize.ShloMosaic.Lib.Pipeline.Value

set_option maxRecDepth 16384

noncomputable section

namespace Cert.KernelIdeal.Normalise3

open Cert.KernelIdeal Cert.KernelIdeal.Gen Cert.KernelIdeal.Blocks Cert.GraphLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl
theorem zeroOffset : (![0] : Fin 1 → Nat) = fun _ => 0 := funext fun a => by fin_cases a <;> rfl

/-- The printed index maps over the grid: the feature and result windows move down one row block per point. -/
theorem blockIndex : ∀ t : Fin cfg3.N, win3_0.index t (0 : Fin 2) = t.val ∧ win3_0.index t (1 : Fin 2) = 0
    ∧ win3_6.index t (0 : Fin 2) = t.val ∧ win3_6.index t (1 : Fin 2) = 0 :=
  (by decide +kernel : ∀ t : Fin grid3.N, _)

/-- The five parameter windows stay at the one block of their vectors. -/
theorem vectorIndex : ∀ t : Fin cfg3.N, win3_1.index t (0 : Fin 1) = 0 ∧ win3_2.index t (0 : Fin 1) = 0
    ∧ win3_3.index t (0 : Fin 1) = 0 ∧ win3_4.index t (0 : Fin 1) = 0 ∧ win3_5.index t (0 : Fin 1) = 0 :=
  (by decide +kernel : ∀ t : Fin grid3.N, _)

/-- The feature block at point `t` is rows `5000 t …` of the feature array. -/
theorem featureBlock (c : Dev nD) (t : Fin cfg3.N) (y : S5000x64.Idx) (k : S100000x64.Idx)
    (hk0 : (k 0).val = 5000 * t.val + (y 0).val) (hk1 : (k 1).val = (y 1).val) :
    (iblk3 V c 0 t : Vec Ideal S5000x64 .f32) y = (V c main_v64 : S100000x64.Idx → Elt Ideal .f32) k := by
  obtain ⟨e0, e1, -, -⟩ := blockIndex t
  unfold iblk3
  rw [View.read_apply]
  show V c main_v64 _ = V c main_v64 _
  congr 1
  funext a
  apply Fin.ext
  match a with
  | ⟨0, _⟩ => show win3_0.index t 0 * 5000 + 1 * (y 0).val = (k 0).val; rw [e0, hk0]; omega
  | ⟨1, _⟩ => show win3_0.index t 1 * 64 + 1 * (y 1).val = (k 1).val; rw [e1, hk1]; omega

/-- The bias window at every point is the whole vector. -/
theorem biasBlock (c : Dev nD) (t : Fin cfg3.N) (y : S64.Idx) :
    (iblk3 V c 1 t : Vec Ideal S64 .f32) y = (V c main_arg11 : S64.Idx → Elt Ideal .f32) y := by
  have e := (vectorIndex t).1
  unfold iblk3
  rw [View.read_apply]
  show V c main_arg11 _ = V c main_arg11 _
  congr 1
  funext a
  apply Fin.ext
  match a with
  | ⟨0, _⟩ => show win3_1.index t 0 * 64 + 1 * (y 0).val = (y 0).val; rw [e]; omega

/-- The gain window at every point is the whole vector. -/
theorem gainBlock (c : Dev nD) (t : Fin cfg3.N) (y : S64.Idx) :
    (iblk3 V c 2 t : Vec Ideal S64 .f32) y = (V c main_arg12 : S64.Idx → Elt Ideal .f32) y := by
  have e := (vectorIndex t).2.1
  unfold iblk3
  rw [View.read_apply]
  show V c main_arg12 _ = V c main_arg12 _
  congr 1
  funext a
  apply Fin.ext
  match a with
  | ⟨0, _⟩ => show win3_2.index t 0 * 64 + 1 * (y 0).val = (y 0).val; rw [e]; omega

/-- The shift window at every point is the whole vector. -/
theorem shiftBlock (c : Dev nD) (t : Fin cfg3.N) (y : S64.Idx) :
    (iblk3 V c 3 t : Vec Ideal S64 .f32) y = (V c main_arg13 : S64.Idx → Elt Ideal .f32) y := by
  have e := (vectorIndex t).2.2.1
  unfold iblk3
  rw [View.read_apply]
  show V c main_arg13 _ = V c main_arg13 _
  congr 1
  funext a
  apply Fin.ext
  match a with
  | ⟨0, _⟩ => show win3_3.index t 0 * 64 + 1 * (y 0).val = (y 0).val; rw [e]; omega

/-- The mean window at every point is the whole vector. -/
theorem meanBlock (c : Dev nD) (t : Fin cfg3.N) (y : S64.Idx) :
    (iblk3 V c 4 t : Vec Ideal S64 .f32) y = (V c main_arg14 : S64.Idx → Elt Ideal .f32) y := by
  have e := (vectorIndex t).2.2.2.1
  unfold iblk3
  rw [View.read_apply]
  show V c main_arg14 _ = V c main_arg14 _
  congr 1
  funext a
  apply Fin.ext
  match a with
  | ⟨0, _⟩ => show win3_4.index t 0 * 64 + 1 * (y 0).val = (y 0).val; rw [e]; omega

/-- The variance window at every point is the whole vector. -/
theorem varianceBlock (c : Dev nD) (t : Fin cfg3.N) (y : S64.Idx) :
    (iblk3 V c 5 t : Vec Ideal S64 .f32) y = (V c main_arg15 : S64.Idx → Elt Ideal .f32) y := by
  have e := (vectorIndex t).2.2.2.2
  unfold iblk3
  rw [View.read_apply]
  show V c main_arg15 _ = V c main_arg15 _
  congr 1
  funext a
  apply Fin.ext
  match a with
  | ⟨0, _⟩ => show win3_5.index t 0 * 64 + 1 * (y 0).val = (y 0).val; rw [e]; omega

/-- One entry of a written block, over the literal index types: if the loaded feature block holds at `y` the
    feature array's entry at `k` (same column), and the five loaded vectors are the five parameter arrays, then the
    body's value at `y` is the layer function's entry at `k`. -/
theorem pointValue (H : FVec Ideal S100000x64 .f32) (B G S M Vr : FVec Ideal S64 .f32)
    (x : Vec Ideal S5000x64 .f32) (b v μ g β : Vec Ideal S64 .f32) (y : S5000x64.Idx) (k : S100000x64.Idx)
    (hx : x y = H k) (hb : ∀ u, b u = B u) (hg : ∀ u, g u = G u) (hβ : ∀ u, β u = S u) (hμ : ∀ u, μ u = M u)
    (hv : ∀ u, v u = Vr u) (hk1 : (k 1).val = (y 1).val) :
    k3_pay1 (F := Ideal) x b v μ g β y = shiftScaleRelu H B G S M Vr k := by
  obtain ⟨p, q, rfl⟩ : ∃ (p : Fin 5000) (q : Fin 64), y = ix2 p q := ⟨y 0, y 1, eq_ix2 y⟩
  obtain ⟨r, o, rfl⟩ : ∃ (r : Fin 100000) (o : Fin 64), k = ix2 r o := ⟨k 0, k 1, eq_ix2 k⟩
  obtain rfl : o = q := Fin.ext hk1
  rw [shiftScaleRelu_apply, normalise'_apply, hx, hb, hg, hβ, hμ, hv]

/-- What point `t` writes back is block `t` of the layer function of the six arrays as the region finds them. -/
theorem flushed (c : Dev nD) (t : Fin cfg3.N) :
    (dat3 V c).flushed 6 t = ((cfg3.win 6).blk t).view.read (Elt Ideal)
      (shiftScaleRelu (V c main_v64 : FVec Ideal S100000x64 .f32) (V c main_arg11 : FVec Ideal S64 .f32) (V c main_arg12 : FVec Ideal S64 .f32)
        (V c main_arg13 : FVec Ideal S64 .f32) (V c main_arg14 : FVec Ideal S64 .f32) (V c main_arg15 : FVec Ideal S64 .f32)) := by
  show (cfg3.win 6).cut (grid3.coords t) ((dat3 V c).after 6 t) = _
  rw [after3_6]
  unfold out3_6
  rw [View.canon_unit_zero zeroOffsets]
  simp only [View.ld_unit_zero (S := S5000x64) zeroOffsets, View.ld_unit_zero (S := S64) zeroOffset]
  obtain ⟨-, -, e2, e3⟩ := blockIndex t
  funext j
  show k3_pay1 (F := Ideal) (iblk3 V c 0 t) (iblk3 V c 1 t) (iblk3 V c 5 t) (iblk3 V c 4 t) (iblk3 V c 2 t) (iblk3 V c 3 t) j
    = shiftScaleRelu _ _ _ _ _ _ (((cfg3.win 6).blk t).view.emb j)
  have e0 : ((((cfg3.win 6).blk t).view.emb j) 0).val = win3_6.index t 0 * 5000 + 1 * (j 0).val := rfl
  have e1 : ((((cfg3.win 6).blk t).view.emb j) 1).val = win3_6.index t 1 * 64 + 1 * (j 1).val := rfl
  refine pointValue _ _ _ _ _ _ (iblk3 V c 0 t) (iblk3 V c 1 t) (iblk3 V c 5 t) (iblk3 V c 4 t) (iblk3 V c 2 t) (iblk3 V c 3 t) j
    (((cfg3.win 6).blk t).view.emb j) (featureBlock V c t j _ ?_ ?_) (fun u => biasBlock V c t u) (fun u => gainBlock V c t u)
    (fun u => shiftBlock V c t u) (fun u => meanBlock V c t u) (fun u => varianceBlock V c t u) ?_
  · rw [e0, e2]; omega
  · rw [e1, e3]; omega
  · rw [e1, e3]; omega

/-- An index of the result array is in point `t`'s block iff its row is among that point's 5000 rows. -/
theorem mem_block (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v65).slice (win3_6.rect t)).set ↔ _
  rw [View.set_slice_whole, Rect.mem_set_unit]
  exact Iff.rfl

/-- Every row is in the block of the point `row / 5000`. -/
theorem covered (i : S100000x64.Idx) : ∃ t : Fin cfg3.N, (cfg3.win 6).flush t = true ∧ i ∈ ((cfg3.win 6).blk t).view.set := by
  have hN : cfg3.N = 20 := N_3
  have hi0 : (i 0).val < 100000 := (i 0).isLt
  have hi1 : (i 1).val < 64 := (i 1).isLt
  refine ⟨⟨(i 0).val / 5000, by omega⟩, flush3_6 _, ?_⟩
  rw [mem_block]
  obtain ⟨-, -, e2, e3⟩ := blockIndex ⟨(i 0).val / 5000, by omega⟩
  intro a
  match a with
  | ⟨0, _⟩ => show win3_6.index _ (0 : Fin 2) * 5000 ≤ (i 0).val ∧ (i 0).val < win3_6.index _ (0 : Fin 2) * 5000 + 5000; rw [e2]; show (i 0).val / 5000 * 5000 ≤ _ ∧ _ < (i 0).val / 5000 * 5000 + 5000; omega
  | ⟨1, _⟩ => show win3_6.index _ (1 : Fin 2) * 64 ≤ (i 1).val ∧ (i 1).val < win3_6.index _ (1 : Fin 2) * 64 + 64; rw [e3]; omega

/-- After the region the result array is the layer function of the arrays it was entered with. -/
theorem result (c : Dev nD) : (dat3 V c).arrAt 6 cfg3.N
    = shiftScaleRelu (V c main_v64 : FVec Ideal S100000x64 .f32) (V c main_arg11 : FVec Ideal S64 .f32) (V c main_arg12 : FVec Ideal S64 .f32)
        (V c main_arg13 : FVec Ideal S64 .f32) (V c main_arg14 : FVec Ideal S64 .f32) (V c main_arg15 : FVec Ideal S64 .f32) :=
  (dat3 V c).arrAt_eq_of_cover 6 _ (fun t _ => flushed V c t) covered

end Cert.KernelIdeal.Normalise3

end
-- ==== Proof.Product4.lean ====
/-
  The third layer's product region, as one whole-array function of what the region finds.

  The region visits 20 points; point `t` reads rows `5000 t … 5000 t + 4999` of the hidden features and the whole
  weight matrix, and writes back rows `5000 t … 5000 t + 4999` of the result. What it writes back is the block of
  `rowsTimes` of the two arrays: a row of the product depends only on the same row of the features. The 20 row
  blocks tile the 100000 rows, so after the region the result array is `rowsTimes` of the features and the weights,
  whatever the contents `V` the region was entered with.
-/
import proofs.«126172_j16475494547815_1_alg».proof.Proof.Gen.KernelIdeal.Frame
import proofs.«126172_j16475494547815_1_alg».proof.Proof.Blocks
import Idealize.ShloMosaic.Lib.Pipeline.Value

set_option maxRecDepth 16384

noncomputable section

namespace Cert.KernelIdeal.Product4

open Cert.KernelIdeal Cert.KernelIdeal.Gen Cert.KernelIdeal.Blocks Cert.GraphLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the grid: the feature and result windows move down one row block per point, the
    weight window stays. -/
theorem blockIndex : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The feature block at point `t` is rows `5000 t …` of the feature array. -/
theorem featureBlock (c : Dev nD) (t : Fin cfg4.N) (y : S5000x64.Idx) (k : S100000x64.Idx)
    (hk0 : (k 0).val = 5000 * t.val + (y 0).val) (hk1 : (k 1).val = (y 1).val) :
    (iblk4 V c 0 t : Vec Ideal S5000x64 .f32) y = (V c main_v65 : S100000x64.Idx → Elt Ideal .f32) k := by
  obtain ⟨e0, e1, -, -, -, -⟩ := blockIndex t
  unfold iblk4
  rw [View.read_apply]
  show V c main_v65 _ = V c main_v65 _
  congr 1
  funext a
  apply Fin.ext
  match a with
  | ⟨0, _⟩ => show win4_0.index t 0 * 5000 + 1 * (y 0).val = (k 0).val; rw [e0, hk0]; omega
  | ⟨1, _⟩ => show win4_0.index t 1 * 64 + 1 * (y 1).val = (k 1).val; rw [e1, hk1]; omega

/-- The weight block at every point is the whole weight array. -/
theorem weightBlock (c : Dev nD) (t : Fin cfg4.N) (y : S64x64.Idx) :
    (iblk4 V c 1 t : Vec Ideal S64x64 .f32) y = (V c main_arg16 : S64x64.Idx → Elt Ideal .f32) y := by
  obtain ⟨-, -, e2, e3, -, -⟩ := blockIndex t
  unfold iblk4
  rw [View.read_apply]
  show V c main_arg16 _ = V c main_arg16 _
  congr 1
  funext a
  apply Fin.ext
  match a with
  | ⟨0, _⟩ => show win4_1.index t 0 * 64 + 1 * (y 0).val = (y 0).val; rw [e2]; omega
  | ⟨1, _⟩ => show win4_1.index t 1 * 64 + 1 * (y 1).val = (y 1).val; rw [e3]; omega

/-- One entry of a written block, over the literal index types: if the loaded feature block holds, in the row of
    `y`, the feature array's row of `k`, and the loaded weight block is the weight array, then the body's value at
    `y` is the product's entry at `k` (same column). -/
theorem pointValue (A : FVec Ideal S100000x64 .f32) (B : FVec Ideal S64x64 .f32)
    (x : Vec Ideal S5000x64 .f32) (w : Vec Ideal S64x64 .f32) (y : S5000x64.Idx) (k : S100000x64.Idx)
    (hx : ∀ (u : S5000x64.Idx) (v : S100000x64.Idx), (u 0).val = (y 0).val → (v 0).val = (k 0).val → (v 1).val = (u 1).val → x u = A v)
    (hw : ∀ u, w u = B u) (hk1 : (k 1).val = (y 1).val) :
    k4_pay1 (F := Ideal) x w y = rowsTimes A B k := by
  obtain ⟨p, q, rfl⟩ : ∃ (p : Fin 5000) (q : Fin 64), y = ix2 p q := ⟨y 0, y 1, eq_ix2 y⟩
  obtain ⟨r, o, rfl⟩ : ∃ (r : Fin 100000) (o : Fin 64), k = ix2 r o := ⟨k 0, k 1, eq_ix2 k⟩
  obtain rfl : o = q := Fin.ext hk1
  rw [rowsTimes_apply, product64'_apply]
  refine Finset.sum_congr rfl fun c _ => ?_
  rw [hx (ix2 p c) (ix2 r c) rfl rfl rfl, hw]

/-- What point `t` writes back is block `t` of the product of the two arrays as the region finds them. -/
theorem flushed (c : Dev nD) (t : Fin cfg4.N) :
    (dat4 V c).flushed 2 t = ((cfg4.win 2).blk t).view.read (Elt Ideal)
      (rowsTimes (V c main_v65 : FVec Ideal S100000x64 .f32) (V c main_arg16 : FVec Ideal S64x64 .f32)) := by
  show (cfg4.win 2).cut (grid4.coords t) ((dat4 V c).after 2 t) = _
  rw [after4_2]
  unfold out4_2
  rw [View.canon_unit_zero zeroOffsets]
  simp only [View.ld_unit_zero (S := S5000x64) zeroOffsets, View.ld_unit_zero (S := S64x64) zeroOffsets]
  obtain ⟨-, -, -, -, e4, e5⟩ := blockIndex t
  funext j
  show k4_pay1 (F := Ideal) (iblk4 V c 0 t) (iblk4 V c 1 t) j = rowsTimes _ _ (((cfg4.win 2).blk t).view.emb j)
  refine pointValue _ _ (iblk4 V c 0 t) (iblk4 V c 1 t) j (((cfg4.win 2).blk t).view.emb j) ?_ (fun u => weightBlock V c t u) ?_
  · intro u v h0 h1 h2
    refine featureBlock V c t u v ?_ h2
    have e : ((((cfg4.win 2).blk t).view.emb j) 0).val = win4_2.index t 0 * 5000 + 1 * (j 0).val := rfl
    rw [h1, e, e4, h0]; omega
  · show win4_2.index t 1 * 64 + 1 * (j 1).val = (j 1).val
    rw [e5]; omega

/-- An index of the result array is in point `t`'s block iff its row is among that point's 5000 rows. -/
theorem mem_block (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v66).slice (win4_2.rect t)).set ↔ _
  rw [View.set_slice_whole, Rect.mem_set_unit]
  exact Iff.rfl

/-- Every row is in the block of the point `row / 5000`. -/
theorem covered (i : S100000x64.Idx) : ∃ t : Fin cfg4.N, (cfg4.win 2).flush t = true ∧ i ∈ ((cfg4.win 2).blk t).view.set := by
  have hN : cfg4.N = 20 := N_4
  have hi0 : (i 0).val < 100000 := (i 0).isLt
  have hi1 : (i 1).val < 64 := (i 1).isLt
  refine ⟨⟨(i 0).val / 5000, by omega⟩, flush4_2 _, ?_⟩
  rw [mem_block]
  obtain ⟨-, -, -, -, e4, e5⟩ := blockIndex ⟨(i 0).val / 5000, by omega⟩
  intro a
  match a with
  | ⟨0, _⟩ => show win4_2.index _ (0 : Fin 2) * 5000 ≤ (i 0).val ∧ (i 0).val < win4_2.index _ (0 : Fin 2) * 5000 + 5000; rw [e4]; show (i 0).val / 5000 * 5000 ≤ _ ∧ _ < (i 0).val / 5000 * 5000 + 5000; omega
  | ⟨1, _⟩ => show win4_2.index _ (1 : Fin 2) * 64 ≤ (i 1).val ∧ (i 1).val < win4_2.index _ (1 : Fin 2) * 64 + 64; rw [e5]; omega

/-- After the region the result array is the product of the feature and weight arrays it was entered with. -/
theorem result (c : Dev nD) : (dat4 V c).arrAt 2 cfg4.N
    = rowsTimes (V c main_v65 : FVec Ideal S100000x64 .f32) (V c main_arg16 : FVec Ideal S64x64 .f32) :=
  (dat4 V c).arrAt_eq_of_cover 2 _ (fun t _ => flushed V c t) covered

end Cert.KernelIdeal.Product4

end
-- ==== Proof.Normalise5.lean ====
/-
  The third layer's normalisation region, as one whole-array function of what the region finds.

  The region visits 20 points; point `t` reads rows `5000 t … 5000 t + 4999` of the aggregated features and the
  five whole parameter vectors, and writes back the same rows of the result. What it writes back is the block of
  `shiftScaleRelu` of the six arrays: an entry of the result depends only on the same entry of the features and on
  its column's parameters. The 20 row blocks tile the 100000 rows, so after the region the result array is
  `shiftScaleRelu` of the features and the parameters, whatever the contents `V` the region was entered with.
-/
import proofs.«126172_j16475494547815_1_alg».proof.Proof.Gen.KernelIdeal.Frame
import proofs.«126172_j16475494547815_1_alg».proof.Proof.Blocks
import Idealize.ShloMosaic.Lib.Pipeline.Value

set_option maxRecDepth 16384

noncomputable section

namespace Cert.KernelIdeal.Normalise5

open Cert.KernelIdeal Cert.KernelIdeal.Gen Cert.KernelIdeal.Blocks Cert.GraphLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl
theorem zeroOffset : (![0] : Fin 1 → Nat) = fun _ => 0 := funext fun a => by fin_cases a <;> rfl

/-- The printed index maps over the grid: the feature and result windows move down one row block per point. -/
theorem blockIndex : ∀ t : Fin cfg5.N, win5_0.index t (0 : Fin 2) = t.val ∧ win5_0.index t (1 : Fin 2) = 0
    ∧ win5_6.index t (0 : Fin 2) = t.val ∧ win5_6.index t (1 : Fin 2) = 0 :=
  (by decide +kernel : ∀ t : Fin grid5.N, _)

/-- The five parameter windows stay at the one block of their vectors. -/
theorem vectorIndex : ∀ t : Fin cfg5.N, win5_1.index t (0 : Fin 1) = 0 ∧ win5_2.index t (0 : Fin 1) = 0
    ∧ win5_3.index t (0 : Fin 1) = 0 ∧ win5_4.index t (0 : Fin 1) = 0 ∧ win5_5.index t (0 : Fin 1) = 0 :=
  (by decide +kernel : ∀ t : Fin grid5.N, _)

/-- The feature block at point `t` is rows `5000 t …` of the feature array. -/
theorem featureBlock (c : Dev nD) (t : Fin cfg5.N) (y : S5000x64.Idx) (k : S100000x64.Idx)
    (hk0 : (k 0).val = 5000 * t.val + (y 0).val) (hk1 : (k 1).val = (y 1).val) :
    (iblk5 V c 0 t : Vec Ideal S5000x64 .f32) y = (V c main_v79 : S100000x64.Idx → Elt Ideal .f32) k := by
  obtain ⟨e0, e1, -, -⟩ := blockIndex t
  unfold iblk5
  rw [View.read_apply]
  show V c main_v79 _ = V c main_v79 _
  congr 1
  funext a
  apply Fin.ext
  match a with
  | ⟨0, _⟩ => show win5_0.index t 0 * 5000 + 1 * (y 0).val = (k 0).val; rw [e0, hk0]; omega
  | ⟨1, _⟩ => show win5_0.index t 1 * 64 + 1 * (y 1).val = (k 1).val; rw [e1, hk1]; omega

/-- The bias window at every point is the whole vector. -/
theorem biasBlock (c : Dev nD) (t : Fin cfg5.N) (y : S64.Idx) :
    (iblk5 V c 1 t : Vec Ideal S64 .f32) y = (V c main_arg17 : S64.Idx → Elt Ideal .f32) y := by
  have e := (vectorIndex t).1
  unfold iblk5
  rw [View.read_apply]
  show V c main_arg17 _ = V c main_arg17 _
  congr 1
  funext a
  apply Fin.ext
  match a with
  | ⟨0, _⟩ => show win5_1.index t 0 * 64 + 1 * (y 0).val = (y 0).val; rw [e]; omega

/-- The gain window at every point is the whole vector. -/
theorem gainBlock (c : Dev nD) (t : Fin cfg5.N) (y : S64.Idx) :
    (iblk5 V c 2 t : Vec Ideal S64 .f32) y = (V c main_arg18 : S64.Idx → Elt Ideal .f32) y := by
  have e := (vectorIndex t).2.1
  unfold iblk5
  rw [View.read_apply]
  show V c main_arg18 _ = V c main_arg18 _
  congr 1
  funext a
  apply Fin.ext
  match a with
  | ⟨0, _⟩ => show win5_2.index t 0 * 64 + 1 * (y 0).val = (y 0).val; rw [e]; omega

/-- The shift window at every point is the whole vector. -/
theorem shiftBlock (c : Dev nD) (t : Fin cfg5.N) (y : S64.Idx) :
    (iblk5 V c 3 t : Vec Ideal S64 .f32) y = (V c main_arg19 : S64.Idx → Elt Ideal .f32) y := by
  have e := (vectorIndex t).2.2.1
  unfold iblk5
  rw [View.read_apply]
  show V c main_arg19 _ = V c main_arg19 _
  congr 1
  funext a
  apply Fin.ext
  match a with
  | ⟨0, _⟩ => show win5_3.index t 0 * 64 + 1 * (y 0).val = (y 0).val; rw [e]; omega

/-- The mean window at every point is the whole vector. -/
theorem meanBlock (c : Dev nD) (t : Fin cfg5.N) (y : S64.Idx) :
    (iblk5 V c 4 t : Vec Ideal S64 .f32) y = (V c main_arg20 : S64.Idx → Elt Ideal .f32) y := by
  have e := (vectorIndex t).2.2.2.1
  unfold iblk5
  rw [View.read_apply]
  show V c main_arg20 _ = V c main_arg20 _
  congr 1
  funext a
  apply Fin.ext
  match a with
  | ⟨0, _⟩ => show win5_4.index t 0 * 64 + 1 * (y 0).val = (y 0).val; rw [e]; omega

/-- The variance window at every point is the whole vector. -/
theorem varianceBlock (c : Dev nD) (t : Fin cfg5.N) (y : S64.Idx) :
    (iblk5 V c 5 t : Vec Ideal S64 .f32) y = (V c main_arg21 : S64.Idx → Elt Ideal .f32) y := by
  have e := (vectorIndex t).2.2.2.2
  unfold iblk5
  rw [View.read_apply]
  show V c main_arg21 _ = V c main_arg21 _
  congr 1
  funext a
  apply Fin.ext
  match a with
  | ⟨0, _⟩ => show win5_5.index t 0 * 64 + 1 * (y 0).val = (y 0).val; rw [e]; omega

/-- One entry of a written block, over the literal index types: if the loaded feature block holds at `y` the
    feature array's entry at `k` (same column), and the five loaded vectors are the five parameter arrays, then the
    body's value at `y` is the layer function's entry at `k`. -/
theorem pointValue (H : FVec Ideal S100000x64 .f32) (B G S M Vr : FVec Ideal S64 .f32)
    (x : Vec Ideal S5000x64 .f32) (b v μ g β : Vec Ideal S64 .f32) (y : S5000x64.Idx) (k : S100000x64.Idx)
    (hx : x y = H k) (hb : ∀ u, b u = B u) (hg : ∀ u, g u = G u) (hβ : ∀ u, β u = S u) (hμ : ∀ u, μ u = M u)
    (hv : ∀ u, v u = Vr u) (hk1 : (k 1).val = (y 1).val) :
    k5_pay1 (F := Ideal) x b v μ g β y = shiftScaleRelu H B G S M Vr k := by
  obtain ⟨p, q, rfl⟩ : ∃ (p : Fin 5000) (q : Fin 64), y = ix2 p q := ⟨y 0, y 1, eq_ix2 y⟩
  obtain ⟨r, o, rfl⟩ : ∃ (r : Fin 100000) (o : Fin 64), k = ix2 r o := ⟨k 0, k 1, eq_ix2 k⟩
  obtain rfl : o = q := Fin.ext hk1
  rw [shiftScaleRelu_apply, normalise''_apply, hx, hb, hg, hβ, hμ, hv]

/-- What point `t` writes back is block `t` of the layer function of the six arrays as the region finds them. -/
theorem flushed (c : Dev nD) (t : Fin cfg5.N) :
    (dat5 V c).flushed 6 t = ((cfg5.win 6).blk t).view.read (Elt Ideal)
      (shiftScaleRelu (V c main_v79 : FVec Ideal S100000x64 .f32) (V c main_arg17 : FVec Ideal S64 .f32) (V c main_arg18 : FVec Ideal S64 .f32)
        (V c main_arg19 : FVec Ideal S64 .f32) (V c main_arg20 : FVec Ideal S64 .f32) (V c main_arg21 : FVec Ideal S64 .f32)) := by
  show (cfg5.win 6).cut (grid5.coords t) ((dat5 V c).after 6 t) = _
  rw [after5_6]
  unfold out5_6
  rw [View.canon_unit_zero zeroOffsets]
  simp only [View.ld_unit_zero (S := S5000x64) zeroOffsets, View.ld_unit_zero (S := S64) zeroOffset]
  obtain ⟨-, -, e2, e3⟩ := blockIndex t
  funext j
  show k5_pay1 (F := Ideal) (iblk5 V c 0 t) (iblk5 V c 1 t) (iblk5 V c 5 t) (iblk5 V c 4 t) (iblk5 V c 2 t) (iblk5 V c 3 t) j
    = shiftScaleRelu _ _ _ _ _ _ (((cfg5.win 6).blk t).view.emb j)
  have e0 : ((((cfg5.win 6).blk t).view.emb j) 0).val = win5_6.index t 0 * 5000 + 1 * (j 0).val := rfl
  have e1 : ((((cfg5.win 6).blk t).view.emb j) 1).val = win5_6.index t 1 * 64 + 1 * (j 1).val := rfl
  refine pointValue _ _ _ _ _ _ (iblk5 V c 0 t) (iblk5 V c 1 t) (iblk5 V c 5 t) (iblk5 V c 4 t) (iblk5 V c 2 t) (iblk5 V c 3 t) j
    (((cfg5.win 6).blk t).view.emb j) (featureBlock V c t j _ ?_ ?_) (fun u => biasBlock V c t u) (fun u => gainBlock V c t u)
    (fun u => shiftBlock V c t u) (fun u => meanBlock V c t u) (fun u => varianceBlock V c t u) ?_
  · rw [e0, e2]; omega
  · rw [e1, e3]; omega
  · rw [e1, e3]; omega

/-- An index of the result array is in point `t`'s block iff its row is among that point's 5000 rows. -/
theorem mem_block (t : Fin cfg5.N) (i : S100000x64.Idx) :
    i ∈ ((cfg5.win 6).blk t).view.set ↔ ∀ a : Fin 2, win5_6.index t a * S5000x64.size a ≤ (i a).val ∧ (i a).val < win5_6.index t a * S5000x64.size a + S5000x64.size a := by
  show i ∈ ((View.whole main_v80).slice (win5_6.rect t)).set ↔ _
  rw [View.set_slice_whole, Rect.mem_set_unit]
  exact Iff.rfl

/-- Every row is in the block of the point `row / 5000`. -/
theorem covered (i : S100000x64.Idx) : ∃ t : Fin cfg5.N, (cfg5.win 6).flush t = true ∧ i ∈ ((cfg5.win 6).blk t).view.set := by
  have hN : cfg5.N = 20 := N_5
  have hi0 : (i 0).val < 100000 := (i 0).isLt
  have hi1 : (i 1).val < 64 := (i 1).isLt
  refine ⟨⟨(i 0).val / 5000, by omega⟩, flush5_6 _, ?_⟩
  rw [mem_block]
  obtain ⟨-, -, e2, e3⟩ := blockIndex ⟨(i 0).val / 5000, by omega⟩
  intro a
  match a with
  | ⟨0, _⟩ => show win5_6.index _ (0 : Fin 2) * 5000 ≤ (i 0).val ∧ (i 0).val < win5_6.index _ (0 : Fin 2) * 5000 + 5000; rw [e2]; show (i 0).val / 5000 * 5000 ≤ _ ∧ _ < (i 0).val / 5000 * 5000 + 5000; omega
  | ⟨1, _⟩ => show win5_6.index _ (1 : Fin 2) * 64 ≤ (i 1).val ∧ (i 1).val < win5_6.index _ (1 : Fin 2) * 64 + 64; rw [e3]; omega

/-- After the region the result array is the layer function of the arrays it was entered with. -/
theorem result (c : Dev nD) : (dat5 V c).arrAt 6 cfg5.N
    = shiftScaleRelu (V c main_v79 : FVec Ideal S100000x64 .f32) (V c main_arg17 : FVec Ideal S64 .f32) (V c main_arg18 : FVec Ideal S64 .f32)
        (V c main_arg19 : FVec Ideal S64 .f32) (V c main_arg20 : FVec Ideal S64 .f32) (V c main_arg21 : FVec Ideal S64 .f32) :=
  (dat5 V c).arrAt_eq_of_cover 6 _ (fun t _ => flushed V c t) covered

end Cert.KernelIdeal.Normalise5

end
-- ==== Proof.Chain.lean ====
/-
  The idealized kernel program's result is the reference's, stage by stage.

  Both programs compute the same host operations around their dense stages; the kernel program computes the dense
  stages in six kernel regions. Its buffer contents at each boundary of its fold are identified here with the
  reference's stages of the launch arguments, in program order:

    the first product (region 0)            = the reference's first dot_general,
    the first aggregation (host stretch)    = the reference's first scatter-add of gathered, scaled rows,
    the first normalisation (region 1)      = the reference's bias / normalise / rectify chain,
    … the same for the second and third layers …,
    the pooled result (last host stretch)   = the reference's result.

  A host stretch is read off the fold operation by operation: each result is its operation's function of its
  operands' contents, and the operands are either the previous stage, or one of the three early values (source
  indices, destination indices, edge normalisation) that nothing has written since, or an argument. A region is read
  by its whole-array function of the contents it was entered with.
-/
import proofs.«126172_j16475494547815_1_alg».proof.Proof.Gen.KernelIdeal.Frame
import proofs.«126172_j16475494547815_1_alg».proof.Proof.Gen.ReferenceIdeal.Read
import proofs.«126172_j16475494547815_1_alg».proof.Proof.Kept
import proofs.«126172_j16475494547815_1_alg».proof.Proof.EarlyValues
import proofs.«126172_j16475494547815_1_alg».proof.Proof.RefStages
import proofs.«126172_j16475494547815_1_alg».proof.Proof.Product0
import proofs.«126172_j16475494547815_1_alg».proof.Proof.Normalise1
import proofs.«126172_j16475494547815_1_alg».proof.Proof.Product2
import proofs.«126172_j16475494547815_1_alg».proof.Proof.Normalise3
import proofs.«126172_j16475494547815_1_alg».proof.Proof.Product4
import proofs.«126172_j16475494547815_1_alg».proof.Proof.Normalise5
import Idealize.ShloMosaic.Lib.StableHlo.Run

set_option maxRecDepth 16384

noncomputable section

namespace Cert.Bridge

open Cert.KernelIdeal Cert.KernelIdeal.Gen Cert.KernelIdeal.Kept Cert.Bridge.Early Cert.GraphLayer
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- An argument array as launched. -/
abbrev arg (r : Ref sig .tc) : Buf (Elt Ideal) ((c : Thread nD τ).loc r) := m ((c : Thread nD τ).loc r)

/-- A buffer that no host operation and no region writes holds its launch contents at every boundary. -/
theorem at5 (r : Ref sig .tc) (h : r ∉ early) : W5 m ρ c (Proc.devRef .tc r) = arg m c r := W5_launch m ρ c r h
theorem at7 (r : Ref sig .tc) (h : r ∉ late) (h' : r ∉ early) : W7 m ρ c (Proc.devRef .tc r) = arg m c r :=
  (W7_early m ρ c r h).trans (W5_launch m ρ c r h')
theorem at8 (r : Ref sig .tc) (h : r ∉ late) (h' : r ∉ early) : W8 m ρ c (Proc.devRef .tc r) = arg m c r :=
  (W8_early m ρ c r h).trans (W5_launch m ρ c r h')
theorem at10 (r : Ref sig .tc) (h : r ∉ late) (h' : r ∉ early) : W10 m ρ c (Proc.devRef .tc r) = arg m c r :=
  (W10_early m ρ c r h).trans (W5_launch m ρ c r h')
theorem at11 (r : Ref sig .tc) (h : r ∉ late) (h' : r ∉ early) : W11 m ρ c (Proc.devRef .tc r) = arg m c r :=
  (W11_early m ρ c r h).trans (W5_launch m ρ c r h')
theorem at13 (r : Ref sig .tc) (h : r ∉ late) (h' : r ∉ early) : W13 m ρ c (Proc.devRef .tc r) = arg m c r :=
  (W13_early m ρ c r h).trans (W5_launch m ρ c r h')
theorem at14 (r : Ref sig .tc) (h : r ∉ late) (h' : r ∉ early) : W14 m ρ c (Proc.devRef .tc r) = arg m c r :=
  (W14_early m ρ c r h).trans (W5_launch m ρ c r h')

/-- Region 0 leaves the first product of the node features and the first weight matrix. -/
theorem product0 : W6 m ρ c (Proc.devRef .tc main_v36) = Cert.ReferenceIdeal.Read.val_main_v36 (F := Ideal) (arg m c main_arg0) (arg m c main_arg4) :=
  calc W6 m ρ c (Proc.devRef .tc main_v36)
      = (dat0 (V5 m ρ) c).arrAt 2 cfg0.N := W6_arr m ρ c 2
    _ = rowsTimes (V5 m ρ c main_arg0 : FVec Ideal S100000x100 .f32) (V5 m ρ c main_arg4 : FVec Ideal S100x64 .f32) := Product0.result (V5 m ρ) c
    _ = rowsTimes (arg m c main_arg0) (arg m c main_arg4) := by
        rw [show V5 m ρ c main_arg0 = _ from at5 m ρ c main_arg0 (by decide), show V5 m ρ c main_arg4 = _ from at5 m ρ c main_arg4 (by decide)]
    _ = Cert.ReferenceIdeal.Read.val_main_v36 (F := Ideal) (arg m c main_arg0) (arg m c main_arg4) := (Cert.ReferenceIdeal.Stages.prod0 _ _).symm

/-- The host stretch after region 0 gathers the product's rows at the source indices, scales them by the edge normalisation and adds them up at the destination indices. -/
theorem aggregate0 : W7 m ρ c (Proc.devRef .tc main_v49) = Cert.ReferenceIdeal.Read.val_main_v49 (F := Ideal) (arg m c main_arg0) (arg m c main_arg1) (arg m c main_arg2) (arg m c main_arg4) := by
  show StableHlo.after hostOps1 (W6 m ρ c) (Proc.devRef .tc main_v49) = _
  simp only [hostOps1]
  after_results_simp
  rw [product0 m ρ c, W6_early m ρ c main_v3 (by decide), W6_early m ρ c main_v6 (by decide), W6_early m ρ c main_v35 (by decide),
    src_eq m ρ c, dst_eq m ρ c, norm_eq m ρ c]
  rfl

/-- Region 1 leaves the first layer's output. -/
theorem normalise0 : W8 m ρ c (Proc.devRef .tc main_v50) = Cert.ReferenceIdeal.Read.val_main_v69 (F := Ideal) (arg m c main_arg0) (arg m c main_arg1) (arg m c main_arg2) (arg m c main_arg4) (arg m c main_arg5) (arg m c main_arg6) (arg m c main_arg7) (arg m c main_arg8) (arg m c main_arg9) :=
  calc W8 m ρ c (Proc.devRef .tc main_v50)
      = (dat1 (V7 m ρ) c).arrAt 6 cfg1.N := W8_arr m ρ c 6
    _ = shiftScaleRelu (V7 m ρ c main_v49 : FVec Ideal S100000x64 .f32) (V7 m ρ c main_arg5 : FVec Ideal S64 .f32) (V7 m ρ c main_arg6 : FVec Ideal S64 .f32) (V7 m ρ c main_arg7 : FVec Ideal S64 .f32) (V7 m ρ c main_arg8 : FVec Ideal S64 .f32) (V7 m ρ c main_arg9 : FVec Ideal S64 .f32) := Normalise1.result (V7 m ρ) c
    _ = shiftScaleRelu (Cert.ReferenceIdeal.Read.val_main_v49 (F := Ideal) (arg m c main_arg0) (arg m c main_arg1) (arg m c main_arg2) (arg m c main_arg4)) (arg m c main_arg5) (arg m c main_arg6) (arg m c main_arg7) (arg m c main_arg8) (arg m c main_arg9) := by
        rw [show V7 m ρ c main_v49 = _ from aggregate0 m ρ c, show V7 m ρ c main_arg5 = _ from at7 m ρ c main_arg5 (by decide) (by decide),
          show V7 m ρ c main_arg6 = _ from at7 m ρ c main_arg6 (by decide) (by decide),
          show V7 m ρ c main_arg7 = _ from at7 m ρ c main_arg7 (by decide) (by decide),
          show V7 m ρ c main_arg8 = _ from at7 m ρ c main_arg8 (by decide) (by decide),
          show V7 m ρ c main_arg9 = _ from at7 m ρ c main_arg9 (by decide) (by decide)]
    _ = Cert.ReferenceIdeal.Read.val_main_v69 (F := Ideal) (arg m c main_arg0) (arg m c main_arg1) (arg m c main_arg2) (arg m c main_arg4) (arg m c main_arg5) (arg m c main_arg6) (arg m c main_arg7) (arg m c main_arg8) (arg m c main_arg9) := (Cert.ReferenceIdeal.Stages.norm0 _ _ _ _ _ _ _ _ _).symm

/-- Region 2 leaves the second product. -/
theorem product1 : W9 m ρ c (Proc.devRef .tc main_v51) = Cert.ReferenceIdeal.Read.val_main_v70 (F := Ideal) (arg m c main_arg0) (arg m c main_arg1) (arg m c main_arg2) (arg m c main_arg4) (arg m c main_arg5) (arg m c main_arg6) (arg m c main_arg7) (arg m c main_arg8) (arg m c main_arg9) (arg m c main_arg10) :=
  calc W9 m ρ c (Proc.devRef .tc main_v51)
      = (dat2 (V8 m ρ) c).arrAt 2 cfg2.N := W9_arr m ρ c 2
    _ = rowsTimes (V8 m ρ c main_v50 : FVec Ideal S100000x64 .f32) (V8 m ρ c main_arg10 : FVec Ideal S64x64 .f32) := Product2.result (V8 m ρ) c
    _ = rowsTimes (Cert.ReferenceIdeal.Read.val_main_v69 (F := Ideal) (arg m c main_arg0) (arg m c main_arg1) (arg m c main_arg2) (arg m c main_arg4) (arg m c main_arg5) (arg m c main_arg6) (arg m c main_arg7) (arg m c main_arg8) (arg m c main_arg9)) (arg m c main_arg10) := by
        rw [show V8 m ρ c main_v50 = _ from normalise0 m ρ c, show V8 m ρ c main_arg10 = _ from at8 m ρ c main_arg10 (by decide) (by decide)]
    _ = Cert.ReferenceIdeal.Read.val_main_v70 (F := Ideal) (arg m c main_arg0) (arg m c main_arg1) (arg m c main_arg2) (arg m c main_arg4) (arg m c main_arg5) (arg m c main_arg6) (arg m c main_arg7) (arg m c main_arg8) (arg m c main_arg9) (arg m c main_arg10) := (Cert.ReferenceIdeal.Stages.prod1 _ _ _ _ _ _ _ _ _ _).symm

/-- The second aggregation. -/
theorem aggregate1 : W10 m ρ c (Proc.devRef .tc main_v64) = Cert.ReferenceIdeal.Read.val_main_v83 (F := Ideal) (arg m c main_arg0) (arg m c main_arg1) (arg m c main_arg2) (arg m c main_arg4) (arg m c main_arg5) (arg m c main_arg6) (arg m c main_arg7) (arg m c main_arg8) (arg m c main_arg9) (arg m c main_arg10) := by
  show StableHlo.after hostOps3 (W9 m ρ c) (Proc.devRef .tc main_v64) = _
  simp only [hostOps3]
  after_results_simp
  rw [product1 m ρ c, W9_early m ρ c main_v3 (by decide), W9_early m ρ c main_v6 (by decide), W9_early m ρ c main_v35 (by decide),
    src_eq m ρ c, dst_eq m ρ c, norm_eq m ρ c]
  rfl

/-- Region 3 leaves the second layer's output. -/
theorem normalise1 : W11 m ρ c (Proc.devRef .tc main_v65) = Cert.ReferenceIdeal.Read.val_main_v103 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) :=
  calc W11 m ρ c (Proc.devRef .tc main_v65)
      = (dat3 (V10 m ρ) c).arrAt 6 cfg3.N := W11_arr m ρ c 6
    _ = shiftScaleRelu (V10 m ρ c main_v64 : FVec Ideal S100000x64 .f32) (V10 m ρ c main_arg11 : FVec Ideal S64 .f32) (V10 m ρ c main_arg12 : FVec Ideal S64 .f32) (V10 m ρ c main_arg13 : FVec Ideal S64 .f32) (V10 m ρ c main_arg14 : FVec Ideal S64 .f32) (V10 m ρ c main_arg15 : FVec Ideal S64 .f32) := Normalise3.result (V10 m ρ) c
    _ = shiftScaleRelu (Cert.ReferenceIdeal.Read.val_main_v83 (F := Ideal) (arg m c main_arg0) (arg m c main_arg1) (arg m c main_arg2) (arg m c main_arg4) (arg m c main_arg5) (arg m c main_arg6) (arg m c main_arg7) (arg m c main_arg8) (arg m c main_arg9) (arg m c main_arg10)) (arg m c main_arg11) (arg m c main_arg12) (arg m c main_arg13) (arg m c main_arg14) (arg m c main_arg15) := by
        rw [show V10 m ρ c main_v64 = _ from aggregate1 m ρ c, show V10 m ρ c main_arg11 = _ from at10 m ρ c main_arg11 (by decide) (by decide),
          show V10 m ρ c main_arg12 = _ from at10 m ρ c main_arg12 (by decide) (by decide),
          show V10 m ρ c main_arg13 = _ from at10 m ρ c main_arg13 (by decide) (by decide),
          show V10 m ρ c main_arg14 = _ from at10 m ρ c main_arg14 (by decide) (by decide),
          show V10 m ρ c main_arg15 = _ from at10 m ρ c main_arg15 (by decide) (by decide)]
    _ = Cert.ReferenceIdeal.Read.val_main_v103 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) := (Cert.ReferenceIdeal.Stages.norm1 _ _ _ _ _ _ _ _ _ _ _ _ _ _ _).symm

/-- Region 4 leaves the third product. -/
theorem product2 : W12 m ρ c (Proc.devRef .tc main_v66) = Cert.ReferenceIdeal.Read.val_main_v104 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) :=
  calc W12 m ρ c (Proc.devRef .tc main_v66)
      = (dat4 (V11 m ρ) c).arrAt 2 cfg4.N := W12_arr m ρ c 2
    _ = rowsTimes (V11 m ρ c main_v65 : FVec Ideal S100000x64 .f32) (V11 m ρ c main_arg16 : FVec Ideal S64x64 .f32) := Product4.result (V11 m ρ) c
    _ = rowsTimes (Cert.ReferenceIdeal.Read.val_main_v103 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15)) (arg m c main_arg16) := by
        rw [show V11 m ρ c main_v65 = _ from normalise1 m ρ c, show V11 m ρ c main_arg16 = _ from at11 m ρ c main_arg16 (by decide) (by decide)]
    _ = Cert.ReferenceIdeal.Read.val_main_v104 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) := (Cert.ReferenceIdeal.Stages.prod2 _ _ _ _ _ _ _ _ _ _ _ _ _ _ _ _).symm

/-- The third aggregation. -/
theorem aggregate2 : W13 m ρ c (Proc.devRef .tc main_v79) = Cert.ReferenceIdeal.Read.val_main_v117 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) := by
  show StableHlo.after hostOps5 (W12 m ρ c) (Proc.devRef .tc main_v79) = _
  simp only [hostOps5]
  after_results_simp
  rw [product2 m ρ c, W12_early m ρ c main_v3 (by decide), W12_early m ρ c main_v6 (by decide), W12_early m ρ c main_v35 (by decide),
    src_eq m ρ c, dst_eq m ρ c, norm_eq m ρ c]
  rfl

/-- Region 5 leaves the third layer's output. -/
theorem normalise2 : W14 m ρ c (Proc.devRef .tc main_v80) = Cert.ReferenceIdeal.Read.val_main_v137 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) :=
  calc W14 m ρ c (Proc.devRef .tc main_v80)
      = (dat5 (V13 m ρ) c).arrAt 6 cfg5.N := W14_arr m ρ c 6
    _ = shiftScaleRelu (V13 m ρ c main_v79 : FVec Ideal S100000x64 .f32) (V13 m ρ c main_arg17 : FVec Ideal S64 .f32) (V13 m ρ c main_arg18 : FVec Ideal S64 .f32) (V13 m ρ c main_arg19 : FVec Ideal S64 .f32) (V13 m ρ c main_arg20 : FVec Ideal S64 .f32) (V13 m ρ c main_arg21 : FVec Ideal S64 .f32) := Normalise5.result (V13 m ρ) c
    _ = shiftScaleRelu (Cert.ReferenceIdeal.Read.val_main_v117 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16)) (arg m c main_arg17) (arg m c main_arg18) (arg m c main_arg19) (arg m c main_arg20) (arg m c main_arg21) := by
        rw [show V13 m ρ c main_v79 = _ from aggregate2 m ρ c, show V13 m ρ c main_arg17 = _ from at13 m ρ c main_arg17 (by decide) (by decide),
          show V13 m ρ c main_arg18 = _ from at13 m ρ c main_arg18 (by decide) (by decide),
          show V13 m ρ c main_arg19 = _ from at13 m ρ c main_arg19 (by decide) (by decide),
          show V13 m ρ c main_arg20 = _ from at13 m ρ c main_arg20 (by decide) (by decide),
          show V13 m ρ c main_arg21 = _ from at13 m ρ c main_arg21 (by decide) (by decide)]
    _ = Cert.ReferenceIdeal.Read.val_main_v137 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) := (Cert.ReferenceIdeal.Stages.norm2 _ _ _ _ _ _ _ _ _ _ _ _ _ _ _ _ _ _ _ _ _).symm

set_option maxHeartbeats 1600000 in
/-- The last host stretch pools the third layer's output per graph (sum, and sum over count floored at one) and
    joins the two: the kernel program's result is the reference's result stage of the launch arguments. -/
theorem result_eq : W15 m ρ c (Proc.devRef .tc main_v93) = Cert.ReferenceIdeal.Read.val_main_v150 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) := by
  show StableHlo.after hostOps6 (W14 m ρ c) (Proc.devRef .tc main_v93) = _
  simp only [hostOps6]
  after_results
  rw [normalise2 m ρ c, at14 m ρ c main_arg3 (by decide) (by decide)]
  rfl

end Cert.Bridge

end
-- ==== Proof.lean ====
/-
  The certificate of a three-layer graph network: a Pallas program against its plain jax reference.

  Each layer multiplies the node features by a weight matrix, gathers the product's rows along the edges, scales
  them by a symmetric degree normalisation, adds them up at the destination nodes, and then applies a bias, a
  normalisation by fixed statistics and a rectifier; the result is pooled per graph (mean and sum). The kernel
  program runs the two dense stages of each layer as kernels tiled over blocks of 5000 nodes and everything else
  as the same host operations as the reference.

  Over the extended reals the two programs compute the same function operation for operation: narrowing a matmul
  operand to bf16 is the identity, a block product into a zero accumulator is the sum the host's dot_general is, a
  parameter vector laid out as a row and copied down a block is the host's broadcast of it, the kernel's and the
  host's inverse square root are one function, and the two programs use the same literal words. No law of
  arithmetic is needed beyond that, so the precondition is never opened.

  The frames of the two kernel programs are the generated ones; the reference's frame is its generated run with the
  result dropped; nothing was rewritten by the idealization, so `preserves` is trivial; the algebraic claim joins the
  kernel program's run (Proof/KernelRun.lean: the result buffer at the last contents of the fold through the
  program's segments) and the reference's generated run by the chain of Proof/Chain.lean.
-/
import proofs.«126172_j16475494547815_1_alg».proof.Defs
import proofs.«126172_j16475494547815_1_alg».proof.Proof.Gen.Kernel
import proofs.«126172_j16475494547815_1_alg».proof.Proof.Gen.Kernel.Skeleton
import proofs.«126172_j16475494547815_1_alg».proof.Proof.Gen.Kernel.Launch
import proofs.«126172_j16475494547815_1_alg».proof.Proof.Gen.Kernel.Points
import proofs.«126172_j16475494547815_1_alg».proof.Proof.Gen.Kernel.Frame
import proofs.«126172_j16475494547815_1_alg».proof.Proof.Gen.KernelIdeal
import proofs.«126172_j16475494547815_1_alg».proof.Proof.Gen.KernelIdeal.Skeleton
import proofs.«126172_j16475494547815_1_alg».proof.Proof.Gen.KernelIdeal.Launch
import proofs.«126172_j16475494547815_1_alg».proof.Proof.Gen.KernelIdeal.Points
import proofs.«126172_j16475494547815_1_alg».proof.Proof.Gen.KernelIdeal.Frame
import proofs.«126172_j16475494547815_1_alg».proof.Proof.Gen.ReferenceIdeal
import proofs.«126172_j16475494547815_1_alg».proof.Proof.Gen.Pre_finite_inputs
import proofs.«126172_j16475494547815_1_alg».proof.Proof.Gen.ReferenceIdeal.Read
import proofs.«126172_j16475494547815_1_alg».proof.Proof.KernelRun
import proofs.«126172_j16475494547815_1_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and leaves its arguments alone: its generated run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the reference's result stage of the launch arguments: the kernel program by the chain of
    boundary contents, the reference by its generated run, the arguments agreeing. -/
theorem algebraic : Cert.algebraic_KernelIdeal_ReferenceIdeal := by
  intro m ρ m' ρ' _ hagree
  refine ⟨fun c => Cert.KernelIdeal.Gen.W15 m ρ c (Proc.devRef .tc Cert.KernelIdeal.main_v93), Cert.KernelIdeal.Run.run_result m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20, e21⟩ := hagree c
  rw [Cert.ReferenceIdeal.Read.val_main_v150_eq, e0, e1, e2, e3, e4, e5, e6, e7, e8, e9, e10, e11, e12, e13, e14, e15, e16, e17, e18, e19, e20, e21]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
